-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x768 : Shape := ⟨2, ![50000, 768]⟩
abbrev S2x800000 : Shape := ⟨2, ![2, 800000]⟩
abbrev S768x256 : Shape := ⟨2, ![768, 256]⟩
abbrev S256 : Shape := ⟨1, ![256]⟩
abbrev S256x256 : Shape := ⟨2, ![256, 256]⟩
abbrev S_ : Shape := ⟨0, ![]⟩

class Facts : Prop where
  bcast_S_S50000x768 : S_.BroadcastsInDim S50000x768 (![] : Fin 0 → Fin S50000x768.rank)
  reducesTo_S50000x768_S_d0_1 : S50000x768.ReducesTo [0, 1] S_
  h_S_ : 0 < S_.numel
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg5 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S50000x768 .f32) (main_arg1 : IVec S2x800000 32) (main_arg2 : FVec F S768x256 .f32) (main_arg3 : FVec F S256 .f32) (main_arg4 : FVec F S256x256 .f32) (main_arg5 : FVec F S256 .f32) : IVec S_ 1 :=
  let main_v0 : FVec F S50000x768 .f32 := Host.absf main_arg0
  let main_cst : FVec F S_ .f32 := constant S_ .f32 0x7F800000#32
  let main_v1 : FVec F S50000x768 .f32 := broadcastInDim S50000x768 ![] bcast_S_S50000x768 main_cst
  let main_v2 : IVec S50000x768 1 := cmpf .olt main_v0 main_v1
  let main_c : IVec S_ 1 := constantI S_ 1 1#1
  let main_v3 : IVec S_ 1 := (fun x v => Host.reduce IntOp.andi x v reducesTo_S50000x768_S_d0_1 h_S_) main_v2 main_c
  let main_v4 : FVec F S768x256 .f32 := Host.absf main_arg2
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_v13 main_v16
-- ==== Kernel.lean ====
abbrev S50000x768 : Shape := ⟨2, ![50000, 768]⟩
abbrev S2x800000 : Shape := ⟨2, ![2, 800000]⟩
abbrev S768x256 : Shape := ⟨2, ![768, 256]⟩
abbrev S256 : Shape := ⟨1, ![256]⟩
abbrev S256x256 : Shape := ⟨2, ![256, 256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x256 : Shape := ⟨2, ![50000, 256]⟩
abbrev S2000x768 : Shape := ⟨2, ![2000, 768]⟩
abbrev S2000x1 : Shape := ⟨2, ![2000, 1]⟩
abbrev S2000x256 : Shape := ⟨2, ![2000, 256]⟩
abbrev S850000x256 : Shape := ⟨2, ![850000, 256]⟩
abbrev S1x256 : Shape := ⟨2, ![1, 256]⟩

abbrev nBuf : Space → Nat
  | .hbm => 61
  | .vmem => 22
  | .smem => 0
  | _ => 0

abbrev bufTy : (tb : Table) → Fin (tcTables nBuf tb) → BufTy
  | .hbm, ⟨0, _⟩ => ⟨S50000x768, .f32⟩
  | .hbm, ⟨1, _⟩ => ⟨S2x800000, .i32⟩
  | .hbm, ⟨2, _⟩ => ⟨S768x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x256, .bf16⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000x256, .bf16⟩
  | .hbm, ⟨38, _⟩ => ⟨S850000x256, .f32⟩
  | .hbm, ⟨39, _⟩ => ⟨S_, .f32⟩
  | .hbm, ⟨40, _⟩ => ⟨S50000x256, .f32⟩
  | .hbm, ⟨41, _⟩ => ⟨S850000x1, .i32⟩
  | .hbm, ⟨42, _⟩ => ⟨S50000x256, .f32⟩
  | .hbm, ⟨43, _⟩ => ⟨S1x256, .f32⟩
  | .hbm, ⟨44, _⟩ => ⟨S50000x256, .bf16⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x256, .bf16⟩
  | .hbm, ⟨54, _⟩ => ⟨S850000x256, .f32⟩
  | .hbm, ⟨55, _⟩ => ⟨S_, .f32⟩
  | .hbm, ⟨56, _⟩ => ⟨S50000x256, .f32⟩
  | .hbm, ⟨57, _⟩ => ⟨S850000x1, .i32⟩
  | .hbm, ⟨58, _⟩ => ⟨S50000x256, .f32⟩
  | .hbm, ⟨59, _⟩ => ⟨S1x256, .f32⟩
  | .hbm, ⟨60, _⟩ => ⟨S50000x256, .f32⟩
  | .local _ .vmem, ⟨0, _⟩ => ⟨S2000x768, .f32⟩
  | .local _ .vmem, ⟨1, _⟩ => ⟨S2000x768, .f32⟩
  | .local _ .vmem, ⟨2, _⟩ => ⟨S768x256, .f32⟩
  | .local _ .vmem, ⟨3, _⟩ => ⟨S2000x1, .f32⟩
  | .local _ .vmem, ⟨4, _⟩ => ⟨S2000x1, .f32⟩
  | .local _ .vmem, ⟨5, _⟩ => ⟨S2000x256, .bf16⟩
  | .local _ .vmem, ⟨6, _⟩ => ⟨S2000x256, .bf16⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S1x256, .f32⟩
  | .local _ .vmem, ⟨12, _⟩ => ⟨S256x256, .f32⟩
  | .local _ .vmem, ⟨13, _⟩ => ⟨S2000x256, .bf16⟩
  | .local _ .vmem, ⟨14, _⟩ => ⟨S2000x256, .bf16⟩
  | .local _ .vmem, ⟨15, _⟩ => ⟨S2000x256, .f32⟩
  | .local _ .vmem, ⟨16, _⟩ => ⟨S2000x256, .f32⟩
  | .local _ .vmem, ⟨17, _⟩ => ⟨S2000x1, .f32⟩
  | .local _ .vmem, ⟨18, _⟩ => ⟨S2000x1, .f32⟩
  | .local _ .vmem, ⟨19, _⟩ => ⟨S1x256, .f32⟩
  | .local _ .vmem, ⟨20, _⟩ => ⟨S2000x256, .f32⟩
  | .local _ .vmem, ⟨21, _⟩ => ⟨S2000x256, .f32⟩
  | _, _ => ⟨S50000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S2000x768_S2000x768_0_0 : ∀ a, (![0, 0] : Fin 2 → Nat) a + S2000x768.size a ≤ S2000x768.size a
  h_S2000x768 : 0 < S2000x768.numel
  bitsLt_bf16_f32 : FTy.bits .bf16 < FTy.bits .f32
  inb_S768x256_S768x256_0_0 : ∀ a, (![0, 0] : Fin 2 → Nat) a + S768x256.size a ≤ S768x256.size a
  h_S768x256 : 0 < S768x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  scatter_S50000_S850000x1_S850000_n_0_0_1_wf : ScatterDims.WF S50000 S850000x1 S850000 [] [0] [0] 1
  dot_S2000x768_S768x256_S2000x256_1_0_0_1_n_n_wf : DotDims.WF S2000x768 S768x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S50000x768.size a
  hwx0_0 : ∀ i : grid0.Coords, EltTy.bits .f32 = 32 ∨ (Rect.block (s := S50000x768) S2000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x256.size a ≤ S768x256.size a
  hwx0_1 : ∀ i : grid0.Coords, EltTy.bits .f32 = 32 ∨ (Rect.block (s := S768x256) S768x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .bf16 = 32 ∨ (Rect.block (s := S50000x256) S2000x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .bf16 = 32 ∨ (Rect.block (s := S50000x256) S2000x256.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S50000x256.size a
  hwx2_3 : ∀ i : grid2.Coords, EltTy.bits .f32 = 32 ∨ (Rect.block (s := S50000x256) S2000x256.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x768_S768x256_S2000x256_1_0_0_1_n_n : DotDims S2000x768 S768x256 S2000x256 where
  lhsContracting := [1]
  rhsContracting := [0]
  lhsNonContracting := [0]
  rhsNonContracting := [1]
  lhsBatch := []
  rhsBatch := []
  wf := dot_S2000x768_S768x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x768 : Shape := ⟨2, ![50000, 768]⟩
abbrev S2x800000 : Shape := ⟨2, ![2, 800000]⟩
abbrev S768x256 : Shape := ⟨2, ![768, 256]⟩
abbrev S256 : Shape := ⟨1, ![256]⟩
abbrev S256x256 : Shape := ⟨2, ![256, 256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩

abbrev nBuf : Space → Nat
  | .hbm => 108
  | .vmem => 0
  | .smem => 0
  | _ => 0

abbrev bufTy : (tb : Table) → Fin (tcTables nBuf tb) → BufTy
  | .hbm, ⟨0, _⟩ => ⟨S50000x768, .f32⟩
  | .hbm, ⟨1, _⟩ => ⟨S2x800000, .i32⟩
  | .hbm, ⟨2, _⟩ => ⟨S768x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x256, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x256, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000, .f32⟩
  | .hbm, ⟨79, _⟩ => ⟨S_, .i32⟩
  | .hbm, ⟨80, _⟩ => ⟨S850000, .i32⟩
  | .hbm, ⟨81, _⟩ => ⟨S850000, .i1⟩
  | .hbm, ⟨82, _⟩ => ⟨S_, .i32⟩
  | .hbm, ⟨83, _⟩ => ⟨S850000, .i32⟩
  | .hbm, ⟨84, _⟩ => ⟨S850000, .i32⟩
  | .hbm, ⟨85, _⟩ => ⟨S850000, .i32⟩
  | .hbm, ⟨86, _⟩ => ⟨S850000x1, .i32⟩
  | .hbm, ⟨87, _⟩ => ⟨S850000, .f32⟩
  | .hbm, ⟨88, _⟩ => ⟨S850000, .f32⟩
  | .hbm, ⟨89, _⟩ => ⟨S_, .i32⟩
  | .hbm, ⟨90, _⟩ => ⟨S850000, .i32⟩
  | .hbm, ⟨91, _⟩ => ⟨S850000, .i1⟩
  | .hbm, ⟨92, _⟩ => ⟨S_, .i32⟩
  | .hbm, ⟨93, _⟩ => ⟨S850000, .i32⟩
  | .hbm, ⟨94, _⟩ => ⟨S850000, .i32⟩
  | .hbm, ⟨95, _⟩ => ⟨S850000, .i32⟩
  | .hbm, ⟨96, _⟩ => ⟨S850000x1, .i32⟩
  | .hbm, ⟨97, _⟩ => ⟨S850000x256, .f32⟩
  | .hbm, ⟨98, _⟩ => ⟨S850000x1, .f32⟩
  | .hbm, ⟨99, _⟩ => ⟨S850000x256, .f32⟩
  | .hbm, ⟨100, _⟩ => ⟨S850000x256, .f32⟩
  | .hbm, ⟨101, _⟩ => ⟨S_, .f32⟩
  | .hbm, ⟨102, _⟩ => ⟨S50000x256, .f32⟩
  | .hbm, ⟨103, _⟩ => ⟨S850000x1, .i32⟩
  | .hbm, ⟨104, _⟩ => ⟨S50000x256, .f32⟩
  | .hbm, ⟨105, _⟩ => ⟨S1x256, .f32⟩
  | .hbm, ⟨106, _⟩ => ⟨S50000x256, .f32⟩
  | .hbm, ⟨107, _⟩ => ⟨S50000x256, .f32⟩
  | _, _ => ⟨S50000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000_S850000x1_S850000_n_0_0_1_wf : ScatterDims.WF S50000 S850000x1 S850000 [] [0] [0] 1
  dot_S50000x768_S768x256_S50000x256_1_0_0_1_n_n_wf : DotDims.WF S50000x768 S768x256 S50000x256 [1] [0] [0] [1] [] []
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x768_S768x256_S50000x256_1_0_0_1_n_n : DotDims S50000x768 S768x256 S50000x256 where
  lhsContracting := [1]
  rhsContracting := [0]
  lhsNonContracting := [0]
  rhsNonContracting := [1]
  lhsBatch := []
  rhsBatch := []
  wf := dot_S50000x768_S768x256_S50000x256_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KRun.lean ====
import proofs.«144526_j47150150975760_2_alg».proof.Proof.Gen.KernelIdeal.Frame

/-!
# The kernel program's run, with its result named

Every weakly fair execution of the three-launch program terminates without a fault; its argument arrays end as
launched, and its result array ends at the contents the last launch's write-backs leave in it: the last of the
boundary contents that follow the program's host stretches and launches from the launch memory.
-/

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the program's eight segments, the final state read at every unscoped buffer: the result at the
    last boundary's contents, each argument back at its launch contents. -/
theorem run_named : θ_run defs (onTc (τ := τ) (main (F := F))) ⟨m, fun _ => 0, ρ⟩ (fun r => ∀ c : Dev nD,
      r.2.mem ((c.tc : Thread nD τ).loc main_v42) = W8 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v42 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.KRun

end
-- ==== Proof.LibReal.lean ====
import Mathlib.Data.EReal.Inv
import Idealize.ShloMosaic.PureOps.Ideal

/-!
# Real-valued extended reals

An extended real is *real* when it is the image of a real number, that is when it is neither
of the two infinities. The sum, difference, product, maximum and finite sums of real extended
reals are real, and so is the quotient of one by a nonzero real; a coercion of a finite sum of
reals is the sum of the coercions. The last sections read a few `f32` bit patterns as the
extended reals they denote, and read back the comparison `|x| < +∞`.
-/

noncomputable section

namespace Cert.GinMath

open Idealize.ShloMosaic
open scoped BigOperators

/-- An extended real is *real* when it is the image of a real number. -/
def IsReal (x : EReal) : Prop := ∃ r : ℝ, x = (r : EReal)

/-- The image of a real number is real. -/
theorem IsReal.coe (r : ℝ) : IsReal (r : EReal) := ⟨r, rfl⟩

/-- Zero is real. -/
theorem isReal_zero : IsReal 0 := ⟨0, rfl⟩

/-- One is real. -/
theorem isReal_one : IsReal 1 := ⟨1, rfl⟩

/-- An extended real is real exactly when it is neither `⊤` nor `⊥`. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩
    induction x using EReal.rec with
    | bot => exact absurd rfl hb
    | coe r => exact ⟨r, rfl⟩
    | top => exact absurd rfl ht

/-- An extended real strictly between `⊥` and `⊤` is real. -/
theorem isReal_of_lt {x : EReal} (hb : ⊥ < x) (ht : x < ⊤) : IsReal x :=
  isReal_iff.mpr ⟨ne_of_lt ht, ne_of_gt hb⟩

/-- The sum of two real extended reals is real. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- The difference of two real extended reals is real. -/
theorem IsReal.sub {x y : EReal} (hx : IsReal x) (hy : IsReal y) : IsReal (x - y) := by
  obtain ⟨a, rfl⟩ := hx; obtain ⟨b, rfl⟩ := hy
  exact ⟨a - b, (EReal.coe_sub a b).symm⟩

/-- The product of two real extended reals is real. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The negation of a real extended real is real. -/
theorem IsReal.neg {x : EReal} (hx : IsReal x) : IsReal (-x) := by
  obtain ⟨a, rfl⟩ := hx
  exact ⟨-a, (EReal.coe_neg a).symm⟩

/-- The maximum of two real extended reals is real. -/
theorem IsReal.max {x y : EReal} (hx : IsReal x) (hy : IsReal y) : IsReal (max x y) := by
  rcases max_choice x y with h | h <;> rw [h] <;> assumption

/-- A finite sum of real extended reals is real. -/
theorem IsReal.sum {ι : Type*} {s : Finset ι} {f : ι → EReal} (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add
      (ih fun i hi => h i (Finset.mem_insert_of_mem hi))

/-- The quotient of a real extended real by a nonzero real is real. -/
theorem IsReal.div_coe {x : EReal} {y : ℝ} (hy : y ≠ 0) (hx : IsReal x) :
    IsReal (Ideal.div x (y : EReal)) := by
  rw [Ideal.div_coe hy]
  exact hx.mul (IsReal.coe _)

/-- The quotient of two reals, the divisor not zero, as an extended real. -/
theorem div_coe_coe (x : ℝ) {y : ℝ} (hy : y ≠ 0) :
    Ideal.div (x : EReal) (y : EReal) = ((x / y : ℝ) : EReal) := by
  rw [Ideal.div_coe hy, ← EReal.coe_mul, mul_one_div]

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of real extended reals is the coercion of a family of reals. -/
theorem exists_real_fun {ι : Type*} {f : ι → EReal} (h : ∀ i, IsReal (f i)) :
    ∃ g : ι → ℝ, ∀ i, f i = (g i : EReal) :=
  ⟨fun i => Classical.choose (h i), fun i => Classical.choose_spec (h i)⟩

/-! ### A few `f32` patterns -/

/-- The pattern of `+0.0` denotes zero. -/
theorem ofBits_zero : Ideal.ofBits .f32 0x00000000#32 = 0 := by
  simp [Ideal.ofBits, Ideal.ieee]

/-- The pattern `0x3F800000` denotes one. -/
theorem ofBits_one : Ideal.ofBits .f32 0x3F800000#32 = ((1 : ℝ) : EReal) := by
  simp [Ideal.ofBits, Ideal.ieee, -EReal.coe_mul]; norm_num

/-- The pattern `0x47C35000` denotes `100000 = (2^23 + 4411392) · 2^(-7)`. -/
theorem ofBits_1e5 : Ideal.ofBits .f32 0x47C35000#32 = ((100000 : ℝ) : EReal) := by
  simp [Ideal.ofBits, Ideal.ieee, -EReal.coe_mul]; norm_num

/-- The pattern `0x3727C5AC` (the `f32` nearest `10⁻⁵`) has an exponent field that is neither
all zeros nor all ones, so it denotes a real number. -/
theorem isReal_ofBits_eps : IsReal (Ideal.ofBits .f32 0x3727C5AC#32) := by
  simp [Ideal.ofBits, Ideal.ieee, -EReal.coe_mul]
  exact ⟨_, rfl⟩

/-- The pattern `0x7F800000` (sign clear, exponent all ones, fraction zero) denotes `⊤`. -/
theorem ofBits_inf : Ideal.ofBits .f32 0x7F800000#32 = ⊤ := by
  simp [Ideal.ofBits, Ideal.ieee]

/-! ### A finiteness test read back -/

/-- A one-bit word made from a Boolean is `1` exactly when the Boolean is true. -/
theorem ofBool_eq_one_iff (b : Bool) : BitVec.ofBool b = 1#1 ↔ b = true := by
  cases b <;> decide

/-- An extended real whose absolute value `max x (-x)` is below `⊤` is real: `x < ⊤` excludes
`⊤`, and `-x < ⊤` excludes `⊥`. -/
theorem isReal_of_abs_lt_top {x : EReal} (h : max x (-x) < ⊤) : IsReal x := by
  rw [max_lt_iff] at h
  refine isReal_iff.mpr ⟨ne_of_lt h.1, ?_⟩
  rintro rfl
  simp at h

/-- The comparison `|x| < +∞` against the pattern of `+∞`, answered `1`, says `x` is real. -/
theorem isReal_of_cmp_abs_lt_inf {x : EReal}
    (h : Ideal.cmp .olt (max x (-x)) (Ideal.ofBits .f32 0x7F800000#32) = 1#1) : IsReal x := by
  rw [ofBits_inf] at h
  have e : Ideal.cmp .olt (max x (-x)) ⊤ = BitVec.ofBool (decide (max x (-x) < ⊤)) := rfl
  rw [e, ofBool_eq_one_iff, decide_eq_true_eq] at h
  exact isReal_of_abs_lt_top h

end Cert.GinMath

end
-- ==== Proof.Finite.lean ====
import proofs.«144526_j47150150975760_2_alg».proof.Pre_finite_inputs
import proofs.«144526_j47150150975760_2_alg».proof.Proof.Gen.Pre_finite_inputs
import proofs.«144526_j47150150975760_2_alg».proof.Proof.LibReal
import Idealize.ShloMosaic.Lib.ReduceAll
import Idealize.ShloMosaic.Lib.Affine
import Idealize.ShloMosaic.Lib.ValueIdx

/-!
# The precondition says every float input entry is a real number

The precondition is the conjunction, over the five float inputs, of "every entry has absolute value below +∞".
Each conjunct is a reduction by "and" of the entrywise comparison, so where the conjunction answers 1 every
comparison answered 1, and an extended real whose absolute value is below +∞ is real.
-/

noncomputable section

namespace Cert.Finite

open Idealize.ShloMosaic Idealize.ShloMosaic.ValueIdx Cert.Pre_finite_inputs Cert.GinMath

/-- The scalar shape has one index. -/
instance : Subsingleton S_.Idx := ⟨fun a b => funext fun d => d.elim0⟩

/-- An entry whose comparison |x| < +∞ answered 1 is real. -/
theorem isReal_of_entry {s : Shape} (x : FVec Ideal s .f32) (inf : FVec Ideal s .f32)
    (hinf : ∀ i, inf i = Ideal.ofBits .f32 0x7F800000#32) (i : s.Idx)
    (h : cmpf .olt (Host.absf x) inf i = 1#1) : IsReal (x i) := by
  have e : cmpf .olt (Host.absf x) inf i = Ideal.cmp .olt (max (x i) (-(x i))) (inf i) := rfl
  rw [e, hinf] at h
  exact isReal_of_cmp_abs_lt_inf h

/-- Where the precondition holds, every entry of every float input is real. -/
theorem reals_of_pre (x0 : FVec Ideal S50000x768 .f32) (x1 : IVec S2x800000 32) (x2 : FVec Ideal S768x256 .f32)
    (x3 : FVec Ideal S256 .f32) (x4 : FVec Ideal S256x256 .f32) (x5 : FVec Ideal S256 .f32)
    (h : fn (F := Ideal) x0 x1 x2 x3 x4 x5 = fun _ => 1#1) :
    (∀ i, IsReal (x0 i)) ∧ (∀ i, IsReal (x2 i)) ∧ (∀ i, IsReal (x3 i)) ∧ (∀ i, IsReal (x4 i)) ∧ (∀ i, IsReal (x5 i)) := by
  have h0 := congrFun h ix0
  dsimp only [fn, fn_part1] at h0
  obtain ⟨h1, r5⟩ := IntOp.andi_eq_one.mp h0
  obtain ⟨h2, r4⟩ := IntOp.andi_eq_one.mp h1
  obtain ⟨h3, r3⟩ := IntOp.andi_eq_one.mp h2
  obtain ⟨r0, r2⟩ := IntOp.andi_eq_one.mp h3
  exact ⟨fun i => isReal_of_entry x0 _ (fun _ => rfl) i (Host.reduce_andi_all _ _ _ _ ix0 r0 i),
    fun i => isReal_of_entry x2 _ (fun _ => rfl) i (Host.reduce_andi_all _ _ _ _ ix0 r2 i),
    fun i => isReal_of_entry x3 _ (fun _ => rfl) i (Host.reduce_andi_all _ _ _ _ ix0 r3 i),
    fun i => isReal_of_entry x4 _ (fun _ => rfl) i (Host.reduce_andi_all _ _ _ _ ix0 r4 i),
    fun i => isReal_of_entry x5 _ (fun _ => rfl) i (Host.reduce_andi_all _ _ _ _ ix0 r5 i)⟩

end Cert.Finite

end
-- ==== Proof.KPrefix.lean ====
import proofs.«144526_j47150150975760_2_alg».proof.Proof.Gen.KernelIdeal.Frame
import proofs.«144526_j47150150975760_2_alg».proof.Proof.ReadP
import Idealize.ShloMosaic.Lib.StableHlo.Run
import Idealize.ShloMosaic.Lib.Pipeline.Value
import Idealize.ShloMosaic.Lib.ValueIdx

/-!
# What the kernel program computes from the edge list before its first launch

The edges' source nodes, their target nodes and the nodes' scales are the values the reference computes from
the same edge list by the same operations; the scales are then laid out as a column for the launches.
-/

set_option maxRecDepth 16384

noncomputable section

namespace Cert.KernelIdeal.KPrefix

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg) (c : Dev nD)

/-- The source nodes: the first row of the edge list followed by every node once. -/
theorem src_eq :
    (W1 m ρ c (Proc.devRef .tc main_v3) : S850000.Idx → BitVec 32)
      = Cert.ReferenceIdeal.ReadP.val_main_v3 (F := Ideal) (m ((c.tc : Thread nD τ).loc main_arg1)) := by
  dsimp only [W1, hostOps0]
  after_results
  rfl

/-- The target nodes: the second row of the edge list followed by every node once. -/
theorem dst_eq :
    (W1 m ρ c (Proc.devRef .tc main_v6) : S850000.Idx → BitVec 32)
      = Cert.ReferenceIdeal.ReadP.val_main_v6 (F := Ideal) (m ((c.tc : Thread nD τ).loc main_arg1)) := by
  dsimp only [W1, hostOps0]
  after_results
  rfl

/-- The comparison "count > 0", the reciprocal square roots of the counts, and the zero, as the reference's. -/
theorem positive_eq :
    (W1 m ρ c (Proc.devRef .tc main_v12) : S50000.Idx → BitVec 1)
      = Cert.ReferenceIdeal.ReadP.val_main_v12 (F := Ideal) (m ((c.tc : Thread nD τ).loc main_arg1)) := by
  dsimp only [W1, hostOps0]
  after_results
  rfl

theorem rsqrt_eq :
    (W1 m ρ c (Proc.devRef .tc main_v13) : S50000.Idx → EReal)
      = Cert.ReferenceIdeal.ReadP.val_main_v13 (F := Ideal) (m ((c.tc : Thread nD τ).loc main_arg1)) := by
  dsimp only [W1, hostOps0]
  after_results
  rfl

theorem zero_eq :
    (W1 m ρ c (Proc.devRef .tc main_cst_2) : S_.Idx → EReal) = Cert.ReferenceIdeal.ReadP.val_main_cst_2 (F := Ideal) := by
  dsimp only [W1, hostOps0]
  after_results
  rfl

section Stretches
variable (U : Valuation τ sig (Elt Ideal))

/-- The selection: the reciprocal square root where the count is positive, the zero elsewhere. -/
theorem where_eq :
    (StableHlo.after hostOps0_1 U (Proc.devRef .tc main_v14) : S50000.Idx → EReal)
      = select (U (Proc.devRef .tc main_v12)) (U (Proc.devRef .tc main_v13))
          (broadcastInDim S50000 ![] bcast_S_S50000 (U (Proc.devRef .tc main_cst_2))) := by
  dsimp only [hostOps0_1]
  after_results
  rfl

/-- The scales laid out as a column. -/
theorem col_eq :
    (StableHlo.after hostOps0_2 U (Proc.devRef .tc main_v15) : S50000x1.Idx → EReal)
      = shapeCast S50000x1 (U (Proc.devRef .tc main_v14) : S50000.Idx → EReal) shapeCasts_S50000_S50000x1 := by
  dsimp only [hostOps0_2]
  after_results
  rfl

end Stretches

/-- The scales: the reciprocal square root of a node's count of incoming edges where positive, else zero. -/
theorem scale_eq :
    (W2 m ρ c (Proc.devRef .tc main_v14) : S50000.Idx → EReal)
      = Cert.ReferenceIdeal.ReadP.val_main_v14 (F := Ideal) (m ((c.tc : Thread nD τ).loc main_arg1)) := by
  refine (where_eq (W1 m ρ c)).trans ?_
  rw [positive_eq, rsqrt_eq, zero_eq]
  rfl

/-- The column of scales reads, in row p, the p-th scale. -/
theorem scaleCol_apply (p : Fin 50000) :
    (W3 m ρ c (Proc.devRef .tc main_v15) : S50000x1.Idx → EReal) (ix2 p (0 : Fin 1))
      = (W2 m ρ c (Proc.devRef .tc main_v14) : S50000.Idx → EReal) (ix1 p) := by
  refine (congrFun (col_eq (W2 m ρ c)) (ix2 p (0 : Fin 1))).trans ?_
  refine shapeCast_apply _ _ _ _ ?_
  show (S50000.rowMajor (ix1 p)).val = (S50000x1.rowMajor (ix2 p (0 : Fin 1))).val
  rw [Shape.rowMajor_val_two, Shape.rowMajor_val_one]
  show p.val = p.val * 1 + 0
  omega

end Cert.KernelIdeal.KPrefix

end
-- ==== Proof.KChain.lean ====
import proofs.«144526_j47150150975760_2_alg».proof.Proof.Gen.KernelIdeal.Frame
import Idealize.ShloMosaic.Lib.StableHlo.Run
import Idealize.ShloMosaic.PureOps.Ideal

/-!
# Buffers that later stretches and launches leave alone

The arguments are never written; the source and target node lists and the column of scales are written once,
before the first launch. Each is therefore read, at any later boundary, as it was when made.
-/

set_option maxRecDepth 16384

noncomputable section

namespace Cert.KernelIdeal.KChain

open Cert.KernelIdeal Cert.KernelIdeal.Gen Idealize.ShloMosaic Idealize.ShloMosaic.TcCoe Idealize.SL.Sem
open Idealize.ShloMosaic.Pipeline (Dat)

/-- A stretch of host operations leaves a buffer none of them writes as it found it. -/
macro "keep_tac" : tactic => `(tactic| (
  refine StableHlo.after_of_forall_not_mem _ _ (List.forall_iff_forall_mem.mp ?_)
  simp only [hostOps0, hostOps0_1, hostOps0_2, hostOps1, hostOps2, List.Forall, StableHlo.nullary_writes,
    StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg) (c : Dev nD)

/-- The features, at the first launch. -/
theorem feat_at3 : W3 m ρ c (Proc.devRef .tc main_arg0) = m ((c : Thread nD τ).loc main_arg0) :=
  ((by keep_tac : W3 m ρ c (Proc.devRef .tc main_arg0) = W2 m ρ c (Proc.devRef .tc main_arg0))).trans (((by keep_tac : W2 m ρ c (Proc.devRef .tc main_arg0) = W1 m ρ c (Proc.devRef .tc main_arg0))).trans (((by keep_tac : W1 m ρ c (Proc.devRef .tc main_arg0) = W0 m ρ c (Proc.devRef .tc main_arg0))).trans (rfl)))

/-- The first weights, at the first launch. -/
theorem w1_at3 : W3 m ρ c (Proc.devRef .tc main_arg2) = m ((c : Thread nD τ).loc main_arg2) :=
  ((by keep_tac : W3 m ρ c (Proc.devRef .tc main_arg2) = W2 m ρ c (Proc.devRef .tc main_arg2))).trans (((by keep_tac : W2 m ρ c (Proc.devRef .tc main_arg2) = W1 m ρ c (Proc.devRef .tc main_arg2))).trans (((by keep_tac : W1 m ρ c (Proc.devRef .tc main_arg2) = W0 m ρ c (Proc.devRef .tc main_arg2))).trans (rfl)))

/-- The source nodes, behind the first launch. -/
theorem src_at4 : W4 m ρ c (Proc.devRef .tc main_v3) = W1 m ρ c (Proc.devRef .tc main_v3) :=
  ((W4_of_ne m ρ c main_v3 (by decide))).trans (((by keep_tac : W3 m ρ c (Proc.devRef .tc main_v3) = W2 m ρ c (Proc.devRef .tc main_v3))).trans ((by keep_tac : W2 m ρ c (Proc.devRef .tc main_v3) = W1 m ρ c (Proc.devRef .tc main_v3))))

/-- The target nodes, behind the first launch. -/
theorem dst_at4 : W4 m ρ c (Proc.devRef .tc main_v6) = W1 m ρ c (Proc.devRef .tc main_v6) :=
  ((W4_of_ne m ρ c main_v6 (by decide))).trans (((by keep_tac : W3 m ρ c (Proc.devRef .tc main_v6) = W2 m ρ c (Proc.devRef .tc main_v6))).trans ((by keep_tac : W2 m ρ c (Proc.devRef .tc main_v6) = W1 m ρ c (Proc.devRef .tc main_v6))))

/-- The first bias, behind the first launch. -/
theorem b1_at4 : W4 m ρ c (Proc.devRef .tc main_arg3) = m ((c : Thread nD τ).loc main_arg3) :=
  ((W4_of_ne m ρ c main_arg3 (by decide))).trans (((by keep_tac : W3 m ρ c (Proc.devRef .tc main_arg3) = W2 m ρ c (Proc.devRef .tc main_arg3))).trans (((by keep_tac : W2 m ρ c (Proc.devRef .tc main_arg3) = W1 m ρ c (Proc.devRef .tc main_arg3))).trans (((by keep_tac : W1 m ρ c (Proc.devRef .tc main_arg3) = W0 m ρ c (Proc.devRef .tc main_arg3))).trans (rfl))))

/-- The column of scales, at the second launch: the first launch reads it and leaves it. -/
theorem scale_at5 : W5 m ρ c (Proc.devRef .tc main_v15) = W3 m ρ c (Proc.devRef .tc main_v15) :=
  ((by keep_tac : W5 m ρ c (Proc.devRef .tc main_v15) = W4 m ρ c (Proc.devRef .tc main_v15))).trans (((W4_arr m ρ c 2).trans (((dat0 (V3 m ρ) c).arrAt_in 2 rfl _).trans (A_eq0 (V3 m ρ) c 2)) : W4 m ρ c (Proc.devRef .tc main_v15) = W3 m ρ c (Proc.devRef .tc main_v15)))

/-- The second weights, at the second launch. -/
theorem w2_at5 : W5 m ρ c (Proc.devRef .tc main_arg4) = m ((c : Thread nD τ).loc main_arg4) :=
  ((by keep_tac : W5 m ρ c (Proc.devRef .tc main_arg4) = W4 m ρ c (Proc.devRef .tc main_arg4))).trans (((W4_of_ne m ρ c main_arg4 (by decide))).trans (((by keep_tac : W3 m ρ c (Proc.devRef .tc main_arg4) = W2 m ρ c (Proc.devRef .tc main_arg4))).trans (((by keep_tac : W2 m ρ c (Proc.devRef .tc main_arg4) = W1 m ρ c (Proc.devRef .tc main_arg4))).trans (((by keep_tac : W1 m ρ c (Proc.devRef .tc main_arg4) = W0 m ρ c (Proc.devRef .tc main_arg4))).trans (rfl)))))

/-- The source nodes, behind the second launch. -/
theorem src_at6 : W6 m ρ c (Proc.devRef .tc main_v3) = W1 m ρ c (Proc.devRef .tc main_v3) :=
  ((W6_of_ne m ρ c main_v3 (by decide))).trans (((by keep_tac : W5 m ρ c (Proc.devRef .tc main_v3) = W4 m ρ c (Proc.devRef .tc main_v3))).trans (((W4_of_ne m ρ c main_v3 (by decide))).trans (((by keep_tac : W3 m ρ c (Proc.devRef .tc main_v3) = W2 m ρ c (Proc.devRef .tc main_v3))).trans ((by keep_tac : W2 m ρ c (Proc.devRef .tc main_v3) = W1 m ρ c (Proc.devRef .tc main_v3))))))

/-- The target nodes, behind the second launch. -/
theorem dst_at6 : W6 m ρ c (Proc.devRef .tc main_v6) = W1 m ρ c (Proc.devRef .tc main_v6) :=
  ((W6_of_ne m ρ c main_v6 (by decide))).trans (((by keep_tac : W5 m ρ c (Proc.devRef .tc main_v6) = W4 m ρ c (Proc.devRef .tc main_v6))).trans (((W4_of_ne m ρ c main_v6 (by decide))).trans (((by keep_tac : W3 m ρ c (Proc.devRef .tc main_v6) = W2 m ρ c (Proc.devRef .tc main_v6))).trans ((by keep_tac : W2 m ρ c (Proc.devRef .tc main_v6) = W1 m ρ c (Proc.devRef .tc main_v6))))))

/-- The second bias, behind the second launch. -/
theorem b2_at6 : W6 m ρ c (Proc.devRef .tc main_arg5) = m ((c : Thread nD τ).loc main_arg5) :=
  ((W6_of_ne m ρ c main_arg5 (by decide))).trans (((by keep_tac : W5 m ρ c (Proc.devRef .tc main_arg5) = W4 m ρ c (Proc.devRef .tc main_arg5))).trans (((W4_of_ne m ρ c main_arg5 (by decide))).trans (((by keep_tac : W3 m ρ c (Proc.devRef .tc main_arg5) = W2 m ρ c (Proc.devRef .tc main_arg5))).trans (((by keep_tac : W2 m ρ c (Proc.devRef .tc main_arg5) = W1 m ρ c (Proc.devRef .tc main_arg5))).trans (((by keep_tac : W1 m ρ c (Proc.devRef .tc main_arg5) = W0 m ρ c (Proc.devRef .tc main_arg5))).trans (rfl))))))

/-- The column of scales, at the third launch: the first two launches read it and leave it. -/
theorem scale_at7 : W7 m ρ c (Proc.devRef .tc main_v15) = W3 m ρ c (Proc.devRef .tc main_v15) :=
  ((by keep_tac : W7 m ρ c (Proc.devRef .tc main_v15) = W6 m ρ c (Proc.devRef .tc main_v15))).trans ((((W6_arr m ρ c 1).trans (((dat1 (V5 m ρ) c).arrAt_in 1 rfl _).trans (A_eq1 (V5 m ρ) c 1)) : W6 m ρ c (Proc.devRef .tc main_v15) = W5 m ρ c (Proc.devRef .tc main_v15))).trans (((by keep_tac : W5 m ρ c (Proc.devRef .tc main_v15) = W4 m ρ c (Proc.devRef .tc main_v15))).trans (((W4_arr m ρ c 2).trans (((dat0 (V3 m ρ) c).arrAt_in 2 rfl _).trans (A_eq0 (V3 m ρ) c 2)) : W4 m ρ c (Proc.devRef .tc main_v15) = W3 m ρ c (Proc.devRef .tc main_v15)))))

end Cert.KernelIdeal.KChain

end
-- ==== Proof.KHost.lean ====
import proofs.«144526_j47150150975760_2_alg».proof.Proof.Gen.KernelIdeal.Frame
import proofs.«144526_j47150150975760_2_alg».proof.Proof.ReadP
import Idealize.ShloMosaic.Lib.StableHlo.Run
import Idealize.ShloMosaic.Lib.Pipeline.Value
import Idealize.ShloMosaic.Lib.ValueIdx
import Idealize.ShloMosaic.Lib.ValueLayout

/-!
# The host stretches of the kernel program

Before the first launch the program computes, from the edge list alone, the edges' source and target nodes (the
listed edges followed by one loop per node), each node's count of incoming edges, and the node's scale: the
reciprocal square root of the count where it is positive, zero elsewhere. Between two launches it gathers the
rows of the previous launch's output at the (wrapped) source nodes and adds them up at the target nodes.
These are the same operations, on the same edge list, as the reference's.
-/

set_option maxRecDepth 16384

noncomputable section

namespace Cert.KernelIdeal.KHost

open Cert.KernelIdeal Cert.KernelIdeal.Gen Idealize.ShloMosaic Idealize.ShloMosaic.TcCoe Idealize.SL.Sem
open Idealize.ShloMosaic.StableHlo Idealize.ShloMosaic.ValueIdx

/-- A column of gather indices from a list of nodes: a negative index has the node count added, then the list
    is laid out as a column. -/
def wrapCol (s : S850000.Idx → BitVec 32) : S850000x1.Idx → BitVec 32 :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- A column of scatter indices from a list of nodes, as it is. -/
def rawCol (d : S850000.Idx → BitVec 32) : S850000x1.Idx → BitVec 32 :=
  broadcastInDim S850000x1 ![0] bcast_S850000_S850000x1_0 d

/-- The stretch between two launches: the rows of `A` gathered at the wrapped sources, added up at the targets. -/
def aggOf (A : S50000x256.Idx → EReal) (s d : S850000.Idx → BitVec 32) : S50000x256.Idx → EReal :=
  Host.scatterAdd (F := Ideal) (φ := .f32) scatter_S50000x256_S850000x1_S850000x256_1_0_0_1
    (broadcastInDim S50000x256 ![] bcast_S_S50000x256 (constant (F := Ideal) S_ .f32 0x00000000#32)) (rawCol d)
    (extf .f32 (show FVec Ideal S850000x256 .bf16 from
      Host.gather gather_S50000x256_S850000x1_S850000x256_1_0_n_n_0_1_1256 A (wrapCol s)) bitsLt_bf16_f32)

variable (U : Valuation τ sig (Elt Ideal))

/-- After the stretch behind the first launch: the aggregate of that launch's output. -/
theorem stretch1_agg :
    (StableHlo.after hostOps1 U (Proc.devRef .tc main_v27) : S50000x256.Idx → EReal)
      = aggOf (U (Proc.devRef .tc main_v16)) (U (Proc.devRef .tc main_v3)) (U (Proc.devRef .tc main_v6)) := by
  dsimp only [hostOps1]
  after_results
  rfl

end Cert.KernelIdeal.KHost

end
-- ==== Proof.KHost2.lean ====
import proofs.«144526_j47150150975760_2_alg».proof.Proof.KHost

/-!
# The stretch behind the second launch

The same gather of rows at the wrapped sources and sum at the targets as behind the first launch, applied to the
second launch's output.
-/

set_option maxRecDepth 16384

noncomputable section

namespace Cert.KernelIdeal.KHost2

open Cert.KernelIdeal Cert.KernelIdeal.Gen Idealize.ShloMosaic Idealize.ShloMosaic.TcCoe Idealize.SL.Sem
open Idealize.ShloMosaic.StableHlo Idealize.ShloMosaic.ValueIdx

variable (U : Valuation τ sig (Elt Ideal))

/-- After the stretch behind the second launch: the aggregate of that launch's output. -/
theorem stretch2_agg :
    (StableHlo.after hostOps2 U (Proc.devRef .tc main_v40) : S50000x256.Idx → EReal)
      = KHost.aggOf (U (Proc.devRef .tc main_v29)) (U (Proc.devRef .tc main_v3)) (U (Proc.devRef .tc main_v6)) := by
  dsimp only [hostOps2]
  after_results
  rfl

end Cert.KernelIdeal.KHost2

end
-- ==== Proof.KBias.lean ====
import proofs.«144526_j47150150975760_2_alg».proof.Proof.KHost

/-!
# The bias rows

Each bias vector is laid out as a row for the launch that adds it.
-/

set_option maxRecDepth 16384

noncomputable section

namespace Cert.KernelIdeal.KBias

open Cert.KernelIdeal Cert.KernelIdeal.Gen Idealize.ShloMosaic Idealize.ShloMosaic.TcCoe Idealize.SL.Sem
open Idealize.ShloMosaic.StableHlo Idealize.ShloMosaic.ValueIdx

variable (U : Valuation τ sig (Elt Ideal))

/-- The first bias as a row. -/
theorem bias1_eq :
    (StableHlo.after hostOps1 U (Proc.devRef .tc main_v28) : S1x256.Idx → EReal)
      = shapeCast S1x256 (U (Proc.devRef .tc main_arg3) : S256.Idx → EReal) shapeCasts_S256_S1x256 := by
  dsimp only [hostOps1]
  after_results
  rfl

/-- The second bias as a row. -/
theorem bias2_eq :
    (StableHlo.after hostOps2 U (Proc.devRef .tc main_v41) : S1x256.Idx → EReal)
      = shapeCast S1x256 (U (Proc.devRef .tc main_arg5) : S256.Idx → EReal) shapeCasts_S256_S1x256 := by
  dsimp only [hostOps2]
  after_results
  rfl

/-- A bias row reads, in column k, the k-th bias. -/
theorem biasRow_apply (b : S256.Idx → EReal) (k : Fin 256) :
    shapeCast S1x256 b shapeCasts_S256_S1x256 (ix2 (0 : Fin 1) k) = b (ix1 k) :=
  shapeCast_a_1a_apply b shapeCasts_S256_S1x256 0 k

end Cert.KernelIdeal.KBias

end
-- ==== Proof.Region0.lean ====
import proofs.«144526_j47150150975760_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The arrays the launch reads — the features, the weights, the column of row scales — and the array it writes,
    as functions from indices to extended reals. -/
abbrev feat (c : Dev nD) : S50000x768.Idx → EReal := V c main_arg0
abbrev wts (c : Dev nD) : S768x256.Idx → EReal := V c main_arg2
abbrev scale (c : Dev nD) : S50000x1.Idx → EReal := V c main_v15
abbrev result (c : Dev nD) : S50000x256.Idx → EReal := (dat0 (F := Ideal) V c).arrAt 3 cfg0.N

/-! ## One element of what the body stores -/

/-- The offsets of a load or store of a whole buffer are zero on both axes. -/
theorem zero_offsets : (![0, 0] : Fin 2 → Nat) = fun _ => 0 := funext fun a => by fin_cases a <;> rfl

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product of a `[2000, 768]` block with the `[768, 256]` weights, accumulated from zero, read at `(r, q)`: the
    inner product of the block's row `r` with the weights' column `q`, the contraction index re-indexed by its one
    coordinate. -/
theorem matmul_apply (a : FVec Ideal S2000x768 .bf16) (b : FVec Ideal S768x256 .bf16) (r : Fin 2000) (q : Fin 256) :
    FloatOps.matmul dot_S2000x768_S768x256_S2000x256_1_0_0_1_n_n none a b (constant (F := Ideal) S2000x256 .f32 0x00000000#32) (ix2 r q)
      = ∑ k : Fin 768, a (ix2 r k) * b (ix2 k q) := by
  rw [Ideal.matmul_constant_zero_apply, ← Equiv.sum_comp (contrEquiv1 dot_S2000x768_S768x256_S2000x256_1_0_0_1_n_n 768 rfl rfl).symm]
  refine Finset.sum_congr rfl fun k _ => ?_
  have hk := contrEquiv1_symm_val dot_S2000x768_S768x256_S2000x256_1_0_0_1_n_n 768 rfl rfl k
  have el : dot_S2000x768_S768x256_S2000x256_1_0_0_1_n_n.lhsIdx (ix2 r q) ((contrEquiv1 dot_S2000x768_S768x256_S2000x256_1_0_0_1_n_n 768 rfl rfl).symm k) = ix2 r k := funext fun ax => Fin.ext (by
    match ax with
    | ⟨0, _⟩ =>
      show (dot_S2000x768_S768x256_S2000x256_1_0_0_1_n_n.lhsIdx (ix2 r q) _ 0).val = r.val
      unfold DotDims.lhsIdx
      rw [dif_neg (show ¬(0 : Fin S2000x768.rank) ∈ dot_S2000x768_S768x256_S2000x256_1_0_0_1_n_n.lhsBatch by decide), dif_pos (show (0 : Fin S2000x768.rank) ∈ dot_S2000x768_S768x256_S2000x256_1_0_0_1_n_n.lhsNonContracting by decide)]
      rfl
    | ⟨1, _⟩ => exact (dot_S2000x768_S768x256_S2000x256_1_0_0_1_n_n.lhsIdx_val_of_single rfl (ix2 r q) _).trans hk)
  have er : dot_S2000x768_S768x256_S2000x256_1_0_0_1_n_n.rhsIdx (ix2 r q) ((contrEquiv1 dot_S2000x768_S768x256_S2000x256_1_0_0_1_n_n 768 rfl rfl).symm k) = ix2 k q := funext fun ax => Fin.ext (by
    match ax with
    | ⟨0, _⟩ => exact (dot_S2000x768_S768x256_S2000x256_1_0_0_1_n_n.rhsIdx_val_of_single rfl (ix2 r q) _).trans hk
    | ⟨1, _⟩ =>
      show (dot_S2000x768_S768x256_S2000x256_1_0_0_1_n_n.rhsIdx (ix2 r q) _ 1).val = q.val
      unfold DotDims.rhsIdx
      rw [dif_neg (show ¬(1 : Fin S768x256.rank) ∈ dot_S2000x768_S768x256_S2000x256_1_0_0_1_n_n.rhsBatch by decide), dif_pos (show (1 : Fin S768x256.rank) ∈ dot_S2000x768_S768x256_S2000x256_1_0_0_1_n_n.rhsNonContracting by decide)]
      rfl)
  rw [el, er]

/-- The stored value at `(r, q)` of a block: the inner product of the feature block's row `r` with the weights' column
    `q`, times the scale block's entry of row `r` (the format changes are the identity on extended reals). -/
theorem pay_apply (x0 : Vec Ideal S2000x768 .f32) (x1 : Vec Ideal S768x256 .f32) (x2 : Vec Ideal S2000x1 .f32) (r : Fin 2000) (q : Fin 256) :
    k0_pay1 x0 x1 x2 (ix2 r q) = (∑ k : Fin 768, x0 (ix2 r k) * x1 (ix2 k q)) * x2 (ix2 r (0 : Fin 1)) := by
  unfold k0_pay1
  rw [truncf_apply, mulf_apply]
  simp only [matmul]
  rw [matmul_apply, shapeCast_self, broadcastTo_a1_ab_apply]
  rfl

/-! ## Where the blocks sit in their arrays -/

/-- The index maps, decided once over the grid: the row-blocked windows (features, scales, output) have the same block
    index on the row axis and `0` on the other; the weights' window is the whole array; the output's row-block index
    stays below the number of row blocks. -/
theorem block_indices : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (1 : Fin 2) = 0
    ∧ win0_3.index t (0 : Fin 2) ≤ 24 :=
  (by decide +kernel : ∀ t : Fin grid0.N, _)

/-- Every row block of the output is some point's. -/
theorem block_onto : ∀ b : Fin 25, ∃ t : Fin cfg0.N, win0_3.index t = ![b.val, 0] :=
  (by decide +kernel : ∀ b : Fin 25, ∃ t : Fin grid0.N, win0_3.index t = ![b.val, 0])

/-- Entry `(r, k)` of point `t`'s feature block is the features' entry `(P, k)`, `P` the row `r` of the point's row block. -/
theorem feat_blk (c : Dev nD) (t : Fin cfg0.N) (r : Fin 2000) (k : Fin 768) (P : Fin 50000)
    (hP : P.val = win0_3.index t (0 : Fin 2) * 2000 + r.val) :
    iblk0 V c 0 t (ix2 r k) = feat V c (ix2 P k) := by
  obtain ⟨e0, e1, e2, e3, e4, e5, e6, e7⟩ := block_indices t
  show feat V c (((cfg0.win 0).blk t).view.emb (ix2 r k)) = feat V c (ix2 P k)
  refine congrArg (feat V c) (funext fun a => Fin.ext ?_)
  match a with
  | ⟨0, _⟩ => show win0_0.index t (0 : Fin 2) * 2000 + 1 * r.val = P.val; omega
  | ⟨1, _⟩ => show win0_0.index t (1 : Fin 2) * 768 + 1 * k.val = k.val; omega

/-- Entry `(k, q)` of the weights' block, at any point, is the weights' entry `(k, q)`. -/
theorem wts_blk (c : Dev nD) (t : Fin cfg0.N) (k : Fin 768) (q : Fin 256) :
    iblk0 V c 1 t (ix2 k q) = wts V c (ix2 k q) := by
  obtain ⟨e0, e1, e2, e3, e4, e5, e6, e7⟩ := block_indices t
  show wts V c (((cfg0.win 1).blk t).view.emb (ix2 k q)) = wts V c (ix2 k q)
  refine congrArg (wts V c) (funext fun a => Fin.ext ?_)
  match a with
  | ⟨0, _⟩ => show win0_1.index t (0 : Fin 2) * 768 + 1 * k.val = k.val; omega
  | ⟨1, _⟩ => show win0_1.index t (1 : Fin 2) * 256 + 1 * q.val = q.val; omega

/-- Entry `(r, 0)` of point `t`'s scale block is the scales' entry `(P, 0)`. -/
theorem scale_blk (c : Dev nD) (t : Fin cfg0.N) (r : Fin 2000) (P : Fin 50000)
    (hP : P.val = win0_3.index t (0 : Fin 2) * 2000 + r.val) :
    iblk0 V c 2 t (ix2 r (0 : Fin 1)) = scale V c (ix2 P (0 : Fin 1)) := by
  obtain ⟨e0, e1, e2, e3, e4, e5, e6, e7⟩ := block_indices t
  show scale V c (((cfg0.win 2).blk t).view.emb (ix2 r (0 : Fin 1))) = scale V c (ix2 P (0 : Fin 1))
  refine congrArg (scale V c) (funext fun a => Fin.ext ?_)
  match a with
  | ⟨0, _⟩ => show win0_2.index t (0 : Fin 2) * 2000 + 1 * r.val = P.val; omega
  | ⟨1, _⟩ => show win0_2.index t (1 : Fin 2) * 1 + 1 * (0 : Fin 1).val = (0 : Fin 1).val; omega

/-! ## From the blocks to the array -/

/-- The claimed entry `(p, q)` of the output. -/
abbrev entry (c : Dev nD) (p : Fin 50000) (q : Fin 256) : EReal :=
  (∑ k : Fin 768, feat V c (ix2 p k) * wts V c (ix2 k q)) * scale V c (ix2 p (0 : Fin 1))

/-- The claimed output array. -/
abbrev whole (c : Dev nD) : S50000x256.Idx → EReal := fun i => entry V c (i 0) (i 1)

/-- What point `t` writes back is block `t` of the claimed array. -/
theorem flushed_eq (c : Dev nD) (t : Fin cfg0.N) :
    (dat0 (F := Ideal) V c).flushed 3 t = ((cfg0.win 3).blk t).view.read (Elt Ideal) (whole V c) := by
  show (cfg0.win 3).cut (grid0.coords t) ((dat0 V c).after 3 t) = _
  rw [after0_3]
  unfold out0_3
  rw [View.canon_unit_zero zero_offsets]
  simp only [View.ld_unit_zero (S := S2000x768) zero_offsets, View.ld_unit_zero (S := S768x256) zero_offsets,
    View.ld_unit_zero (S := S2000x1) zero_offsets]
  obtain ⟨e0, e1, e2, e3, e4, e5, e6, e7⟩ := block_indices t
  funext j
  obtain ⟨r, q, rfl⟩ : ∃ (r : Fin 2000) (q : Fin 256), j = ix2 r q := ⟨j 0, j 1, eq_ix2 j⟩
  have hr : r.val < 2000 := r.isLt
  have hemb : ((cfg0.win 3).blk t).view.emb (ix2 r q)
      = (ix2 (⟨win0_3.index t (0 : Fin 2) * 2000 + r.val, by omega⟩ : Fin 50000) q : S50000x256.Idx) :=
    funext fun a => Fin.ext (by
      match a with
      | ⟨0, _⟩ => show win0_3.index t (0 : Fin 2) * 2000 + 1 * r.val = win0_3.index t (0 : Fin 2) * 2000 + r.val; omega
      | ⟨1, _⟩ => show win0_3.index t (1 : Fin 2) * 256 + 1 * q.val = q.val; omega)
  show k0_pay1 (iblk0 V c 0 t) (iblk0 V c 1 t) (iblk0 V c 2 t) (ix2 r q) = whole V c (((cfg0.win 3).blk t).view.emb (ix2 r q))
  rw [hemb]
  refine (pay_apply (iblk0 V c 0 t) (iblk0 V c 1 t) (iblk0 V c 2 t) r q).trans ?_
  show _ = (∑ k : Fin 768, feat V c (ix2 (⟨win0_3.index t (0 : Fin 2) * 2000 + r.val, by omega⟩ : Fin 50000) k) * wts V c (ix2 k q))
      * scale V c (ix2 (⟨win0_3.index t (0 : Fin 2) * 2000 + r.val, by omega⟩ : Fin 50000) (0 : Fin 1))
  rw [scale_blk V c t r ⟨win0_3.index t (0 : Fin 2) * 2000 + r.val, by omega⟩ rfl]
  refine congrArg (· * _) (Finset.sum_congr rfl fun k _ => ?_)
  rw [feat_blk V c t r k ⟨win0_3.index t (0 : Fin 2) * 2000 + r.val, by omega⟩ rfl, wts_blk V c t k q]

/-- An index of the output array is in point `t`'s block iff each coordinate is in the block's range on its axis. -/
theorem mem_blk (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v16).slice (win0_3.rect t)).set ↔ _
  rw [View.set_slice_whole, Rect.mem_set_unit]
  exact Iff.rfl

/-- Every index of the output array is in the block of the point whose row block holds its row, and every point
    writes back. -/
theorem cover (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ := block_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-- The output array after all the points is the claimed array. -/
theorem final_arr (c : Dev nD) : (dat0 (F := Ideal) V c).arrAt 3 cfg0.N = whole V c :=
  (dat0 V c).arrAt_eq_of_cover 3 (whole V c) (fun t _ => flushed_eq V c t) cover

/-- The first layer's transform, row-scaled: after the launch, entry (p, q) of the output array is the inner
    product of row p of the features with column q of the weights, times the p-th scale. -/
theorem final (c : Dev nD) (p : Fin 50000) (q : Fin 256) :
    result V c (ix2 p q) = (∑ k : Fin 768, feat V c (ix2 p k) * wts V c (ix2 k q)) * scale V c (ix2 p (0 : Fin 1)) :=
  congrFun (final_arr V c) (ix2 p q)

end Cert.KernelIdeal.Region0

end
-- ==== Proof.Region1.lean ====
import proofs.«144526_j47150150975760_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The arrays the launch reads — the aggregate, the column of row scales, the bias row, the weights — and the
    array it writes, as functions from indices to extended reals. -/
abbrev agg (c : Dev nD) : S50000x256.Idx → EReal := V c main_v27
abbrev scale (c : Dev nD) : S50000x1.Idx → EReal := V c main_v15
abbrev bias (c : Dev nD) : S1x256.Idx → EReal := V c main_v28
abbrev wts (c : Dev nD) : S256x256.Idx → EReal := V c main_arg4
abbrev result (c : Dev nD) : S50000x256.Idx → EReal := (dat1 (F := Ideal) V c).arrAt 4 cfg1.N

/-! ## One element of what the body stores -/

/-- The offsets of a load or store of a whole buffer are zero on both axes. -/
theorem zero_offsets : (![0, 0] : Fin 2 → Nat) = fun _ => 0 := funext fun a => by fin_cases a <;> rfl

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product of a `[2000, 256]` block with the `[256, 256]` weights, accumulated from zero, read at `(r, q)`: the
    inner product of the block's row `r` with the weights' column `q`, the contraction index re-indexed by its one
    coordinate. -/
theorem matmul_apply (a : FVec Ideal S2000x256 .bf16) (b : FVec Ideal S256x256 .bf16) (r : Fin 2000) (q : Fin 256) :
    FloatOps.matmul dot_S2000x256_S256x256_S2000x256_1_0_0_1_n_n none a b (constant (F := Ideal) S2000x256 .f32 0x00000000#32) (ix2 r q)
      = ∑ k : Fin 256, a (ix2 r k) * b (ix2 k q) := by
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 r q) ((contrEquiv1 dot_S2000x256_S256x256_S2000x256_1_0_0_1_n_n 256 rfl rfl).symm k) = ix2 r k := funext fun ax => Fin.ext (by
    match ax with
    | ⟨0, _⟩ =>
      show (dot_S2000x256_S256x256_S2000x256_1_0_0_1_n_n.lhsIdx (ix2 r q) _ 0).val = r.val
      unfold DotDims.lhsIdx
      rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
      rfl
    | ⟨1, _⟩ => exact (dot_S2000x256_S256x256_S2000x256_1_0_0_1_n_n.lhsIdx_val_of_single rfl (ix2 r q) _).trans hk)
  have er : dot_S2000x256_S256x256_S2000x256_1_0_0_1_n_n.rhsIdx (ix2 r q) ((contrEquiv1 dot_S2000x256_S256x256_S2000x256_1_0_0_1_n_n 256 rfl rfl).symm k) = ix2 k q := funext fun ax => Fin.ext (by
    match ax with
    | ⟨0, _⟩ => exact (dot_S2000x256_S256x256_S2000x256_1_0_0_1_n_n.rhsIdx_val_of_single rfl (ix2 r q) _).trans hk
    | ⟨1, _⟩ =>
      show (dot_S2000x256_S256x256_S2000x256_1_0_0_1_n_n.rhsIdx (ix2 r q) _ 1).val = q.val
      unfold DotDims.rhsIdx
      rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
      rfl)
  rw [el, er]

/-- The rectified row at `(r, k)` of a block: the larger of zero and the scale block's entry of row `r` times the
    aggregate block's entry `(r, k)` plus the bias row's entry `k`. -/
theorem relu_apply (s : FVec Ideal S2000x1 .f32) (a : FVec Ideal S2000x256 .f32) (b : FVec Ideal S1x256 .f32) (r : Fin 2000) (k : Fin 256) :
    maximumf (addf (mulf (broadcastTo S2000x256 s broadcasts_S2000x1_S2000x256) a)
        (broadcastTo S2000x256 b broadcasts_S1x256_S2000x256))
      (broadcast S2000x256 (Scalar.ofBits (F := Ideal) .f32 0x00000000#32)) (ix2 r k)
      = max (s (ix2 r (0 : Fin 1)) * a (ix2 r k) + b (ix2 (0 : Fin 1) k)) 0 := by
  rw [maximumf_apply, addf_apply, mulf_apply, broadcast_apply, broadcastTo_a1_ab_apply, broadcastTo_1b_ab_apply]
  show max _ (Ideal.ofBits .f32 0x00000000#32) = _
  rw [Ideal.ofBits_zero_f32]

/-- The stored value at `(r, q)` of a block: the inner product of the rectified row `r` with the weights' column `q`,
    times the second scale block's entry of row `r` (the format changes are the identity on extended reals). -/
theorem pay_apply (s : Vec Ideal S2000x1 .f32) (a : Vec Ideal S2000x256 .f32) (b : Vec Ideal S1x256 .f32)
    (w : Vec Ideal S256x256 .f32) (s' : Vec Ideal S2000x1 .f32) (r : Fin 2000) (q : Fin 256) :
    k1_pay1 s a b w s' (ix2 r q)
      = (∑ k : Fin 256, max (s (ix2 r (0 : Fin 1)) * a (ix2 r k) + b (ix2 (0 : Fin 1) k)) 0 * w (ix2 k q)) * s' (ix2 r (0 : Fin 1)) := by
  unfold k1_pay1
  simp only [shapeCast_self, matmul]
  rw [truncf_apply, mulf_apply, matmul_apply, broadcastTo_a1_ab_apply]
  refine congrArg (fun x : EReal => x * s' (ix2 r (0 : Fin 1))) (Finset.sum_congr rfl fun k _ => ?_)
  rw [truncf_apply, truncf_apply]
  exact congrArg (fun x : EReal => x * w (ix2 k q)) (relu_apply s a b r k)

/-! ## Where the blocks sit in their arrays -/

/-- The index maps, decided once over the grid: the row-blocked windows (aggregate, scales, output) have the same block
    index on the row axis and `0` on the other; the bias and weights windows are whole arrays; the output's row-block
    index stays below the number of row blocks. -/
theorem block_indices : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (1 : Fin 2) = 0
    ∧ win1_4.index t (0 : Fin 2) ≤ 24 :=
  (by decide +kernel : ∀ t : Fin grid1.N, _)

/-- Every row block of the output is some point's. -/
theorem block_onto : ∀ b : Fin 25, ∃ t : Fin cfg1.N, win1_4.index t = ![b.val, 0] :=
  (by decide +kernel : ∀ b : Fin 25, ∃ t : Fin grid1.N, win1_4.index t = ![b.val, 0])

/-- Entry `(r, k)` of point `t`'s aggregate block is the aggregate's entry `(P, k)`, `P` the row `r` of the point's row block. -/
theorem agg_blk (c : Dev nD) (t : Fin cfg1.N) (r : Fin 2000) (k : Fin 256) (P : Fin 50000)
    (hP : P.val = win1_4.index t (0 : Fin 2) * 2000 + r.val) :
    iblk1 V c 0 t (ix2 r k) = agg V c (ix2 P k) := by
  obtain ⟨e0, e1, e2, e3, e4, e5, e6, e7, e8, e9⟩ := block_indices t
  show agg V c (((cfg1.win 0).blk t).view.emb (ix2 r k)) = agg V c (ix2 P k)
  refine congrArg (agg V c) (funext fun a => Fin.ext ?_)
  match a with
  | ⟨0, _⟩ => show win1_0.index t (0 : Fin 2) * 2000 + 1 * r.val = P.val; omega
  | ⟨1, _⟩ => show win1_0.index t (1 : Fin 2) * 256 + 1 * k.val = k.val; omega

/-- Entry `(r, 0)` of point `t`'s scale block is the scales' entry `(P, 0)`. -/
theorem scale_blk (c : Dev nD) (t : Fin cfg1.N) (r : Fin 2000) (P : Fin 50000)
    (hP : P.val = win1_4.index t (0 : Fin 2) * 2000 + r.val) :
    iblk1 V c 1 t (ix2 r (0 : Fin 1)) = scale V c (ix2 P (0 : Fin 1)) := by
  obtain ⟨e0, e1, e2, e3, e4, e5, e6, e7, e8, e9⟩ := block_indices t
  show scale V c (((cfg1.win 1).blk t).view.emb (ix2 r (0 : Fin 1))) = scale V c (ix2 P (0 : Fin 1))
  refine congrArg (scale V c) (funext fun a => Fin.ext ?_)
  match a with
  | ⟨0, _⟩ => show win1_1.index t (0 : Fin 2) * 2000 + 1 * r.val = P.val; omega
  | ⟨1, _⟩ => show win1_1.index t (1 : Fin 2) * 1 + 1 * (0 : Fin 1).val = (0 : Fin 1).val; omega

/-- Entry `(0, k)` of the bias block, at any point, is the bias row's entry `(0, k)`. -/
theorem bias_blk (c : Dev nD) (t : Fin cfg1.N) (k : Fin 256) :
    iblk1 V c 2 t (ix2 (0 : Fin 1) k) = bias V c (ix2 (0 : Fin 1) k) := by
  obtain ⟨e0, e1, e2, e3, e4, e5, e6, e7, e8, e9⟩ := block_indices t
  show bias V c (((cfg1.win 2).blk t).view.emb (ix2 (0 : Fin 1) k)) = bias V c (ix2 (0 : Fin 1) k)
  refine congrArg (bias V c) (funext fun a => Fin.ext ?_)
  match a with
  | ⟨0, _⟩ => show win1_2.index t (0 : Fin 2) * 1 + 1 * (0 : Fin 1).val = (0 : Fin 1).val; omega
  | ⟨1, _⟩ => show win1_2.index t (1 : Fin 2) * 256 + 1 * k.val = k.val; omega

/-- Entry `(k, q)` of the weights' block, at any point, is the weights' entry `(k, q)`. -/
theorem wts_blk (c : Dev nD) (t : Fin cfg1.N) (k : Fin 256) (q : Fin 256) :
    iblk1 V c 3 t (ix2 k q) = wts V c (ix2 k q) := by
  obtain ⟨e0, e1, e2, e3, e4, e5, e6, e7, e8, e9⟩ := block_indices t
  show wts V c (((cfg1.win 3).blk t).view.emb (ix2 k q)) = wts V c (ix2 k q)
  refine congrArg (wts V c) (funext fun a => Fin.ext ?_)
  match a with
  | ⟨0, _⟩ => show win1_3.index t (0 : Fin 2) * 256 + 1 * k.val = k.val; omega
  | ⟨1, _⟩ => show win1_3.index t (1 : Fin 2) * 256 + 1 * q.val = q.val; omega

/-! ## From the blocks to the array -/

/-- The claimed entry `(p, q)` of the output. -/
abbrev entry (c : Dev nD) (p : Fin 50000) (q : Fin 256) : EReal :=
  (∑ k : Fin 256, max (scale V c (ix2 p (0 : Fin 1)) * agg V c (ix2 p k) + bias V c (ix2 (0 : Fin 1) k)) 0 * wts V c (ix2 k q))
    * scale V c (ix2 p (0 : Fin 1))

/-- The claimed output array. -/
abbrev whole (c : Dev nD) : S50000x256.Idx → EReal := fun i => entry V c (i 0) (i 1)

/-- What point `t` writes back is block `t` of the claimed array. -/
theorem flushed_eq (c : Dev nD) (t : Fin cfg1.N) :
    (dat1 (F := Ideal) V c).flushed 4 t = ((cfg1.win 4).blk t).view.read (Elt Ideal) (whole V c) := by
  show (cfg1.win 4).cut (grid1.coords t) ((dat1 V c).after 4 t) = _
  rw [after1_4]
  unfold out1_4
  rw [View.canon_unit_zero zero_offsets]
  simp only [View.ld_unit_zero (S := S2000x1) zero_offsets, View.ld_unit_zero (S := S2000x256) zero_offsets,
    View.ld_unit_zero (S := S1x256) zero_offsets, View.ld_unit_zero (S := S256x256) zero_offsets]
  obtain ⟨e0, e1, e2, e3, e4, e5, e6, e7, e8, e9⟩ := block_indices t
  funext j
  obtain ⟨r, q, rfl⟩ : ∃ (r : Fin 2000) (q : Fin 256), j = ix2 r q := ⟨j 0, j 1, eq_ix2 j⟩
  have hr : r.val < 2000 := r.isLt
  have hemb : ((cfg1.win 4).blk t).view.emb (ix2 r q)
      = (ix2 (⟨win1_4.index t (0 : Fin 2) * 2000 + r.val, by omega⟩ : Fin 50000) q : S50000x256.Idx) :=
    funext fun a => Fin.ext (by
      match a with
      | ⟨0, _⟩ => show win1_4.index t (0 : Fin 2) * 2000 + 1 * r.val = win1_4.index t (0 : Fin 2) * 2000 + r.val; omega
      | ⟨1, _⟩ => show win1_4.index t (1 : Fin 2) * 256 + 1 * q.val = q.val; omega)
  show k1_pay1 (iblk1 V c 1 t) (iblk1 V c 0 t) (iblk1 V c 2 t) (iblk1 V c 3 t) (iblk1 V c 1 t) (ix2 r q)
    = whole V c (((cfg1.win 4).blk t).view.emb (ix2 r q))
  rw [hemb]
  refine (pay_apply (iblk1 V c 1 t) (iblk1 V c 0 t) (iblk1 V c 2 t) (iblk1 V c 3 t) (iblk1 V c 1 t) r q).trans ?_
  show _ = (∑ k : Fin 256, max (scale V c (ix2 (⟨win1_4.index t (0 : Fin 2) * 2000 + r.val, by omega⟩ : Fin 50000) (0 : Fin 1))
        * agg V c (ix2 (⟨win1_4.index t (0 : Fin 2) * 2000 + r.val, by omega⟩ : Fin 50000) k) + bias V c (ix2 (0 : Fin 1) k)) 0 * wts V c (ix2 k q))
      * scale V c (ix2 (⟨win1_4.index t (0 : Fin 2) * 2000 + r.val, by omega⟩ : Fin 50000) (0 : Fin 1))
  rw [scale_blk V c t r ⟨win1_4.index t (0 : Fin 2) * 2000 + r.val, by omega⟩ rfl]
  refine congrArg (· * _) (Finset.sum_congr rfl fun k _ => ?_)
  rw [agg_blk V c t r k ⟨win1_4.index t (0 : Fin 2) * 2000 + r.val, by omega⟩ rfl, bias_blk V c t k, wts_blk V c t k q]

/-- An index of the output array is in point `t`'s block iff each coordinate is in the block's range on its axis. -/
theorem mem_blk (t : Fin cfg1.N) (i : S50000x256.Idx) :
    i ∈ ((cfg1.win 4).blk t).view.set ↔ ∀ a : Fin 2, win1_4.index t a * S2000x256.size a ≤ (i a).val ∧ (i a).val < win1_4.index t a * S2000x256.size a + S2000x256.size a := by
  show i ∈ ((View.whole main_v29).slice (win1_4.rect t)).set ↔ _
  rw [View.set_slice_whole, Rect.mem_set_unit]
  exact Iff.rfl

/-- Every index of the output array is in the block of the point whose row block holds its row, and every point
    writes back. -/
theorem cover (i : S50000x256.Idx) :
    ∃ t : Fin cfg1.N, (cfg1.win 4).flush t = true ∧ i ∈ ((cfg1.win 4).blk t).view.set := by
  have hi0 : (i 0).val < 50000 := (i 0).isLt
  have hi1 : (i 1).val < 256 := (i 1).isLt
  obtain ⟨t, ht⟩ := block_onto ⟨(i 0).val / 2000, by omega⟩
  have q0 : win1_4.index t (0 : Fin 2) = (i 0).val / 2000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 256 ≤ (i 1).val ∧ (i 1).val < win1_4.index t (1 : Fin 2) * 256 + 256; omega

/-- The output array after all the points is the claimed array. -/
theorem final_arr (c : Dev nD) : (dat1 (F := Ideal) V c).arrAt 4 cfg1.N = whole V c :=
  (dat1 V c).arrAt_eq_of_cover 4 (whole V c) (fun t _ => flushed_eq V c t) cover

/-- The second layer's transform of the rectified first layer, row-scaled: entry (p, q) is the inner product of
    the row (max (scale_p · agg(p, k) + bias_k) 0)_k with column q of the weights, times the p-th scale. -/
theorem final (c : Dev nD) (p : Fin 50000) (q : Fin 256) :
    result V c (ix2 p q)
      = (∑ k : Fin 256, max (scale V c (ix2 p (0 : Fin 1)) * agg V c (ix2 p k) + bias V c (ix2 (0 : Fin 1) k)) 0 * wts V c (ix2 k q))
          * scale V c (ix2 p (0 : Fin 1)) :=
  congrFun (final_arr V c) (ix2 p q)

end Cert.KernelIdeal.Region1

end
-- ==== Proof.Region2.lean ====
import proofs.«144526_j47150150975760_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The arrays the launch reads — the aggregate, the column of row scales, the bias row — and the array it
    writes, as functions from indices to extended reals. -/
abbrev agg (c : Dev nD) : S50000x256.Idx → EReal := V c main_v40
abbrev scale (c : Dev nD) : S50000x1.Idx → EReal := V c main_v15
abbrev bias (c : Dev nD) : S1x256.Idx → EReal := V c main_v41
abbrev result (c : Dev nD) : S50000x256.Idx → EReal := (dat2 (F := Ideal) V c).arrAt 3 cfg2.N

/-! ## One element of what the body stores -/

/-- The offsets of a load or store of a whole buffer are zero on both axes. -/
theorem zero_offsets : (![0, 0] : Fin 2 → Nat) = fun _ => 0 := funext fun a => by fin_cases a <;> rfl

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The stored value at `(r, q)` of a block: the scale block's entry of row `r` times the aggregate block's entry
    `(r, q)`, plus the bias row's entry `q`. -/
theorem pay_apply (s : Vec Ideal S2000x1 .f32) (a : Vec Ideal S2000x256 .f32) (b : Vec Ideal S1x256 .f32) (r : Fin 2000) (q : Fin 256) :
    k2_pay1 s a b (ix2 r q) = s (ix2 r (0 : Fin 1)) * a (ix2 r q) + b (ix2 (0 : Fin 1) q) := by
  unfold k2_pay1
  rw [addf_apply, mulf_apply]
  simp only [shapeCast_self]
  rw [broadcastTo_a1_ab_apply, broadcastTo_1b_ab_apply]

/-! ## Where the blocks sit in their arrays -/

/-- The index maps, decided once over the grid: the row-blocked windows (aggregate, scales, output) have the same block
    index on the row axis and `0` on the other; the bias window is the whole row; the output's row-block index stays
    below the number of row blocks. -/
theorem block_indices : ∀ t : Fin cfg2.N, win2_0.index t (0 : Fin 2) = win2_3.index t (0 : Fin 2)
    ∧ win2_0.index t (1 : Fin 2) = 0
    ∧ win2_1.index t (0 : Fin 2) = win2_3.index t (0 : Fin 2)
    ∧ win2_1.index t (1 : Fin 2) = 0
    ∧ win2_2.index t (0 : Fin 2) = 0
    ∧ win2_2.index t (1 : Fin 2) = 0
    ∧ win2_3.index t (1 : Fin 2) = 0
    ∧ win2_3.index t (0 : Fin 2) ≤ 24 :=
  (by decide +kernel : ∀ t : Fin grid2.N, _)

/-- Every row block of the output is some point's. -/
theorem block_onto : ∀ b : Fin 25, ∃ t : Fin cfg2.N, win2_3.index t = ![b.val, 0] :=
  (by decide +kernel : ∀ b : Fin 25, ∃ t : Fin grid2.N, win2_3.index t = ![b.val, 0])

/-- Entry `(r, q)` of point `t`'s aggregate block is the aggregate's entry `(P, q)`, `P` the row `r` of the point's row block. -/
theorem agg_blk (c : Dev nD) (t : Fin cfg2.N) (r : Fin 2000) (q : Fin 256) (P : Fin 50000)
    (hP : P.val = win2_3.index t (0 : Fin 2) * 2000 + r.val) :
    iblk2 V c 0 t (ix2 r q) = agg V c (ix2 P q) := by
  obtain ⟨e0, e1, e2, e3, e4, e5, e6, e7⟩ := block_indices t
  show agg V c (((cfg2.win 0).blk t).view.emb (ix2 r q)) = agg V c (ix2 P q)
  refine congrArg (agg V c) (funext fun a => Fin.ext ?_)
  match a with
  | ⟨0, _⟩ => show win2_0.index t (0 : Fin 2) * 2000 + 1 * r.val = P.val; omega
  | ⟨1, _⟩ => show win2_0.index t (1 : Fin 2) * 256 + 1 * q.val = q.val; omega

/-- Entry `(r, 0)` of point `t`'s scale block is the scales' entry `(P, 0)`. -/
theorem scale_blk (c : Dev nD) (t : Fin cfg2.N) (r : Fin 2000) (P : Fin 50000)
    (hP : P.val = win2_3.index t (0 : Fin 2) * 2000 + r.val) :
    iblk2 V c 1 t (ix2 r (0 : Fin 1)) = scale V c (ix2 P (0 : Fin 1)) := by
  obtain ⟨e0, e1, e2, e3, e4, e5, e6, e7⟩ := block_indices t
  show scale V c (((cfg2.win 1).blk t).view.emb (ix2 r (0 : Fin 1))) = scale V c (ix2 P (0 : Fin 1))
  refine congrArg (scale V c) (funext fun a => Fin.ext ?_)
  match a with
  | ⟨0, _⟩ => show win2_1.index t (0 : Fin 2) * 2000 + 1 * r.val = P.val; omega
  | ⟨1, _⟩ => show win2_1.index t (1 : Fin 2) * 1 + 1 * (0 : Fin 1).val = (0 : Fin 1).val; omega

/-- Entry `(0, q)` of the bias block, at any point, is the bias row's entry `(0, q)`. -/
theorem bias_blk (c : Dev nD) (t : Fin cfg2.N) (q : Fin 256) :
    iblk2 V c 2 t (ix2 (0 : Fin 1) q) = bias V c (ix2 (0 : Fin 1) q) := by
  obtain ⟨e0, e1, e2, e3, e4, e5, e6, e7⟩ := block_indices t
  show bias V c (((cfg2.win 2).blk t).view.emb (ix2 (0 : Fin 1) q)) = bias V c (ix2 (0 : Fin 1) q)
  refine congrArg (bias V c) (funext fun a => Fin.ext ?_)
  match a with
  | ⟨0, _⟩ => show win2_2.index t (0 : Fin 2) * 1 + 1 * (0 : Fin 1).val = (0 : Fin 1).val; omega
  | ⟨1, _⟩ => show win2_2.index t (1 : Fin 2) * 256 + 1 * q.val = q.val; omega

/-! ## From the blocks to the array -/

/-- The claimed entry `(p, q)` of the output. -/
abbrev entry (c : Dev nD) (p : Fin 50000) (q : Fin 256) : EReal :=
  scale V c (ix2 p (0 : Fin 1)) * agg V c (ix2 p q) + bias V c (ix2 (0 : Fin 1) q)

/-- The claimed output array. -/
abbrev whole (c : Dev nD) : S50000x256.Idx → EReal := fun i => entry V c (i 0) (i 1)

/-- What point `t` writes back is block `t` of the claimed array. -/
theorem flushed_eq (c : Dev nD) (t : Fin cfg2.N) :
    (dat2 (F := Ideal) V c).flushed 3 t = ((cfg2.win 3).blk t).view.read (Elt Ideal) (whole V c) := by
  show (cfg2.win 3).cut (grid2.coords t) ((dat2 V c).after 3 t) = _
  rw [after2_3]
  unfold out2_3
  rw [View.canon_unit_zero zero_offsets]
  simp only [View.ld_unit_zero (S := S2000x1) zero_offsets, View.ld_unit_zero (S := S2000x256) zero_offsets,
    View.ld_unit_zero (S := S1x256) zero_offsets]
  obtain ⟨e0, e1, e2, e3, e4, e5, e6, e7⟩ := block_indices t
  funext j
  obtain ⟨r, q, rfl⟩ : ∃ (r : Fin 2000) (q : Fin 256), j = ix2 r q := ⟨j 0, j 1, eq_ix2 j⟩
  have hr : r.val < 2000 := r.isLt
  have hemb : ((cfg2.win 3).blk t).view.emb (ix2 r q)
      = (ix2 (⟨win2_3.index t (0 : Fin 2) * 2000 + r.val, by omega⟩ : Fin 50000) q : S50000x256.Idx) :=
    funext fun a => Fin.ext (by
      match a with
      | ⟨0, _⟩ => show win2_3.index t (0 : Fin 2) * 2000 + 1 * r.val = win2_3.index t (0 : Fin 2) * 2000 + r.val; omega
      | ⟨1, _⟩ => show win2_3.index t (1 : Fin 2) * 256 + 1 * q.val = q.val; omega)
  show k2_pay1 (iblk2 V c 1 t) (iblk2 V c 0 t) (iblk2 V c 2 t) (ix2 r q) = whole V c (((cfg2.win 3).blk t).view.emb (ix2 r q))
  rw [hemb]
  refine (pay_apply (iblk2 V c 1 t) (iblk2 V c 0 t) (iblk2 V c 2 t) r q).trans ?_
  show _ = scale V c (ix2 (⟨win2_3.index t (0 : Fin 2) * 2000 + r.val, by omega⟩ : Fin 50000) (0 : Fin 1))
      * agg V c (ix2 (⟨win2_3.index t (0 : Fin 2) * 2000 + r.val, by omega⟩ : Fin 50000) q) + bias V c (ix2 (0 : Fin 1) q)
  rw [scale_blk V c t r ⟨win2_3.index t (0 : Fin 2) * 2000 + r.val, by omega⟩ rfl,
    agg_blk V c t r q ⟨win2_3.index t (0 : Fin 2) * 2000 + r.val, by omega⟩ rfl, bias_blk V c t q]

/-- An index of the output array is in point `t`'s block iff each coordinate is in the block's range on its axis. -/
theorem mem_blk (t : Fin cfg2.N) (i : S50000x256.Idx) :
    i ∈ ((cfg2.win 3).blk t).view.set ↔ ∀ a : Fin 2, win2_3.index t a * S2000x256.size a ≤ (i a).val ∧ (i a).val < win2_3.index t a * S2000x256.size a + S2000x256.size a := by
  show i ∈ ((View.whole main_v42).slice (win2_3.rect t)).set ↔ _
  rw [View.set_slice_whole, Rect.mem_set_unit]
  exact Iff.rfl

/-- Every index of the output array is in the block of the point whose row block holds its row, and every point
    writes back. -/
theorem cover (i : S50000x256.Idx) :
    ∃ t : Fin cfg2.N, (cfg2.win 3).flush t = true ∧ i ∈ ((cfg2.win 3).blk t).view.set := by
  have hi0 : (i 0).val < 50000 := (i 0).isLt
  have hi1 : (i 1).val < 256 := (i 1).isLt
  obtain ⟨t, ht⟩ := block_onto ⟨(i 0).val / 2000, by omega⟩
  have q0 : win2_3.index t (0 : Fin 2) = (i 0).val / 2000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 256 ≤ (i 1).val ∧ (i 1).val < win2_3.index t (1 : Fin 2) * 256 + 256; omega

/-- The output array after all the points is the claimed array. -/
theorem final_arr (c : Dev nD) : (dat2 (F := Ideal) V c).arrAt 3 cfg2.N = whole V c :=
  (dat2 V c).arrAt_eq_of_cover 3 (whole V c) (fun t _ => flushed_eq V c t) cover

/-- The last scale and bias: entry (p, q) is the p-th scale times the aggregate plus the q-th bias. -/
theorem final (c : Dev nD) (p : Fin 50000) (q : Fin 256) :
    result V c (ix2 p q) = scale V c (ix2 p (0 : Fin 1)) * agg V c (ix2 p q) + bias V c (ix2 (0 : Fin 1) q) :=
  congrFun (final_arr V c) (ix2 p q)

end Cert.KernelIdeal.Region2

end
-- ==== Proof.KValue.lean ====
import proofs.«144526_j47150150975760_2_alg».proof.Proof.KPrefix
import proofs.«144526_j47150150975760_2_alg».proof.Proof.KChain
import proofs.«144526_j47150150975760_2_alg».proof.Proof.KHost
import proofs.«144526_j47150150975760_2_alg».proof.Proof.KHost2
import proofs.«144526_j47150150975760_2_alg».proof.Proof.KBias
import proofs.«144526_j47150150975760_2_alg».proof.Proof.Region0
import proofs.«144526_j47150150975760_2_alg».proof.Proof.Region1
import proofs.«144526_j47150150975760_2_alg».proof.Proof.Region2

/-!
# The kernel program's result, entry by entry

With s the nodes' scales, the first launch leaves A₁(p, q) = (∑ₖ x(p, k) · W₁(k, q)) · s(p); the stretch behind
it adds the rows of A₁ gathered at the edges' sources up at their targets; the second launch leaves
A₂(p, q) = (∑ₖ max (s(p) · agg A₁ (p, k) + b₁(k)) 0 · W₂(k, q)) · s(p); the stretch behind it does the same with
A₂; and the third launch leaves s(p) · agg A₂ (p, q) + b₂(q), the program's result.
-/

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx
open Cert.KernelIdeal.KPrefix Cert.KernelIdeal.KChain Cert.KernelIdeal.KHost
open scoped BigOperators

variable (m : (ℓ : Loc nD τ sig) → Buf (Elt Ideal) ℓ) (ρ : Dev nD → PrngReg) (c : Dev nD)

/-- The arguments as launched: features, edge list, weights and biases. -/
abbrev x : S50000x768.Idx → EReal := m ((c : Thread nD τ).loc main_arg0)
abbrev edges : S2x800000.Idx → BitVec 32 := m ((c : Thread nD τ).loc main_arg1)
abbrev w1 : S768x256.Idx → EReal := m ((c : Thread nD τ).loc main_arg2)
abbrev b1 : S256.Idx → EReal := m ((c : Thread nD τ).loc main_arg3)
abbrev w2 : S256x256.Idx → EReal := m ((c : Thread nD τ).loc main_arg4)
abbrev b2 : S256.Idx → EReal := m ((c : Thread nD τ).loc main_arg5)

/-- The edges' sources and targets and the nodes' scales, as functions of the edge list. -/
abbrev srcL : S850000.Idx → BitVec 32 := Cert.ReferenceIdeal.ReadP.val_main_v3 (F := Ideal) (edges m c)
abbrev dstL : S850000.Idx → BitVec 32 := Cert.ReferenceIdeal.ReadP.val_main_v6 (F := Ideal) (edges m c)
abbrev sc : S50000.Idx → EReal := Cert.ReferenceIdeal.ReadP.val_main_v14 (F := Ideal) (edges m c)

/-- The first and second launches' output arrays. -/
abbrev out1 : S50000x256.Idx → EReal := W4 m ρ c (Proc.devRef .tc main_v16)
abbrev out2 : S50000x256.Idx → EReal := W6 m ρ c (Proc.devRef .tc main_v29)

/-- The column of scales, read in row p at any of the three launches. -/
theorem scale3 (p : Fin 50000) :
    (W3 m ρ c (Proc.devRef .tc main_v15) : S50000x1.Idx → EReal) (ix2 p (0 : Fin 1)) = sc m c (ix1 p) :=
  (scaleCol_apply m ρ c p).trans (congrFun (scale_eq m ρ c) (ix1 p))

/-- The first launch. -/
theorem out1_apply (p : Fin 50000) (q : Fin 256) :
    out1 m ρ c (ix2 p q) = (∑ k : Fin 768, x m c (ix2 p k) * w1 m c (ix2 k q)) * sc m c (ix1 p) := by
  have e0 : out1 m ρ c = Region0.result (V3 m ρ) c := W4_arr m ρ c 3
  have e1 : Region0.feat (V3 m ρ) c = x m c := feat_at3 m ρ c
  have e2 : Region0.wts (V3 m ρ) c = w1 m c := w1_at3 m ρ c
  have e3 : Region0.scale (V3 m ρ) c (ix2 p (0 : Fin 1)) = sc m c (ix1 p) := scale3 m ρ c p
  rw [e0, Region0.final, e1, e2, e3]

/-- The stretch behind the first launch. -/
theorem agg1_eq :
    (W5 m ρ c (Proc.devRef .tc main_v27) : S50000x256.Idx → EReal) = aggOf (out1 m ρ c) (srcL m c) (dstL m c) := by
  refine (stretch1_agg (W4 m ρ c)).trans ?_
  rw [src_at4, dst_at4, src_eq, dst_eq]

/-- The second launch. -/
theorem out2_apply (p : Fin 50000) (q : Fin 256) :
    out2 m ρ c (ix2 p q)
      = (∑ k : Fin 256, max (sc m c (ix1 p) * aggOf (out1 m ρ c) (srcL m c) (dstL m c) (ix2 p k) + b1 m c (ix1 k)) 0
            * w2 m c (ix2 k q)) * sc m c (ix1 p) := by
  have e0 : out2 m ρ c = Region1.result (V5 m ρ) c := W6_arr m ρ c 4
  have e1 : Region1.agg (V5 m ρ) c = aggOf (out1 m ρ c) (srcL m c) (dstL m c) := agg1_eq m ρ c
  have e2 : Region1.scale (V5 m ρ) c (ix2 p (0 : Fin 1)) = sc m c (ix1 p) :=
    (congrFun (scale_at5 m ρ c) (ix2 p (0 : Fin 1))).trans (scale3 m ρ c p)
  have e3 : ∀ k : Fin 256, Region1.bias (V5 m ρ) c (ix2 (0 : Fin 1) k) = b1 m c (ix1 k) := fun k =>
    (congrFun (KBias.bias1_eq (W4 m ρ c)) (ix2 (0 : Fin 1) k)).trans
      ((KBias.biasRow_apply _ k).trans (congrFun (b1_at4 m ρ c) (ix1 k)))
  have e4 : Region1.wts (V5 m ρ) c = w2 m c := w2_at5 m ρ c
  rw [e0, Region1.final, e1, e2, e4]
  simp only [e3]

/-- The stretch behind the second launch. -/
theorem agg2_eq :
    (W7 m ρ c (Proc.devRef .tc main_v40) : S50000x256.Idx → EReal) = aggOf (out2 m ρ c) (srcL m c) (dstL m c) := by
  refine (KHost2.stretch2_agg (W6 m ρ c)).trans ?_
  rw [src_at6, dst_at6, src_eq, dst_eq]

/-- The third launch: the program's result. -/
theorem result_apply (p : Fin 50000) (q : Fin 256) :
    (W8 m ρ c (Proc.devRef .tc main_v42) : S50000x256.Idx → EReal) (ix2 p q)
      = sc m c (ix1 p) * aggOf (out2 m ρ c) (srcL m c) (dstL m c) (ix2 p q) + b2 m c (ix1 q) := by
  have e0 : (W8 m ρ c (Proc.devRef .tc main_v42) : S50000x256.Idx → EReal) = Region2.result (V7 m ρ) c := W8_arr m ρ c 3
  have e1 : Region2.agg (V7 m ρ) c = aggOf (out2 m ρ c) (srcL m c) (dstL m c) := agg2_eq m ρ c
  have e2 : Region2.scale (V7 m ρ) c (ix2 p (0 : Fin 1)) = sc m c (ix1 p) :=
    (congrFun (scale_at7 m ρ c) (ix2 p (0 : Fin 1))).trans (scale3 m ρ c p)
  have e3 : Region2.bias (V7 m ρ) c (ix2 (0 : Fin 1) q) = b2 m c (ix1 q) :=
    (congrFun (KBias.bias2_eq (W6 m ρ c)) (ix2 (0 : Fin 1) q)).trans
      ((KBias.biasRow_apply _ q).trans (congrFun (b2_at6 m ρ c) (ix1 q)))
  rw [e0, Region2.final, e1, e2, e3]

end Cert.KernelIdeal.KValue

end
-- ==== Proof.LibRowIndex.lean ====
import Idealize.ShloMosaic.PureOps.Ideal
import Idealize.ShloMosaic.Lib.ValueIdx

/-!
# Rows picked by an index column: a gather of rows, a gather of entries, a scatter of rows

An array of E start indices, laid out as a column [E, 1], picks for each e one row of an operand with N rows.
A gather reads the start index as a signed integer and clamps it into [0, N − 1]; a scatter reads it signed and
does not clamp: an update whose row falls outside [0, N) lands nowhere. The three facts below read the two
gathers at an index and say which updates of the scatter land on a given entry.
-/

noncomputable section

namespace Cert.RowIndex

open Idealize.ShloMosaic Idealize.ShloMosaic.ValueIdx

/-- The row a start index selects in a gather: read signed, clamped into [0, N − 1]. -/
def clampRow {w : Nat} (N : Nat) (hN : 0 < N) (b : BitVec w) : Fin N := ⟨min b.toInt.toNat (N - 1), by omega⟩

/-- Dimension numbers of a gather of whole rows: operand [N, C], start indices [E, 1], result [E, C]. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Dimension numbers of a gather of single entries of a vector: operand [N], start indices [E, 1], result [E]. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Dimension numbers of a scatter of whole rows: operand [N, C], scatter indices [E, 1], updates [E, C]. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- A gather of rows at (e, c): the operand at the clamped row of the e-th start index, column c. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (clampRow N hN (idx (ix2 e (0 : Fin 1)))) c) := by
  unfold Host.gather
  congr 1
  funext a
  refine Fin.ext ?_
  match a with
  | ⟨0, _⟩ =>
    show (rowGatherDims N E C wf).start (ix2 e c) idx 0 + (rowGatherDims N E C wf).batchCoord (ix2 e c) 0
        + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
        + (rowGatherDims N E C wf).offCoord (ix2 e c) 1 = _
    rw [GatherDims.batchCoord_eq_zero _ _ _ List.not_mem_nil]
    have h1 : (1 : Fin 2) ∉ (rowGatherDims N E C wf).startIndexMap := by
      intro h; exact absurd (congrArg Fin.val (List.mem_singleton.mp h)) Nat.one_ne_zero
    unfold GatherDims.start
    rw [dif_neg h1]
    simp only [Nat.add_zero, Nat.zero_add]
    rfl

/-- A gather of entries at e: the operand at the clamped e-th start index. -/
theorem vecGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e (0 : Fin 1))))) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- Update (e, c) of a scatter of rows lands on entry (p, q) exactly when the e-th scatter index, read signed,
    is p, and the columns agree. -/
theorem rowScatter_resultIdx {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (p : Fin N) (q : Fin C) :
    (rowScatterDims N E C wf).resultIdx? (ix2 e c) idx = some (ix2 p q)
      ↔ (idx (ix2 e (0 : Fin 1))).toInt = (p.val : ℤ) ∧ c = q := by
  have hw0 : (rowScatterDims N E C wf).window (ix2 e c) 0 = 0 := by
    unfold ScatterDims.window
    rw [dif_neg]
    intro h
    have h' := (List.mem_filter.mp h).2
    simp at h'
  have hst0 : (rowScatterDims N E C wf).start (ix2 e c) idx 0 = (idx (ix2 e (0 : Fin 1))).toInt := by
    unfold ScatterDims.start
    rw [dif_pos (show (0 : Fin 2) ∈ (rowScatterDims N E C wf).scatterDimsToOperandDims from List.mem_singleton.mpr rfl)]
    have hsi : (rowScatterDims N E C wf).siIdx (ix2 e c)
        ⟨List.idxOf (0 : Fin 2) (rowScatterDims N E C wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hst1 : (rowScatterDims N E C wf).start (ix2 e c) idx 1 = 0 := by
    unfold ScatterDims.start
    rw [dif_neg]
    intro h
    exact absurd (congrArg Fin.val (List.mem_singleton.mp h)) Nat.one_ne_zero
  have hw1 : (rowScatterDims N E C wf).window (ix2 e c) 1 = c.val := by
    unfold ScatterDims.window
    rw [dif_pos]
    · rfl
    · refine List.mem_filter.mpr ⟨List.mem_finRange _, ?_⟩
      apply decide_eq_true
      intro h
      exact absurd (congrArg Fin.val (List.mem_singleton.mp h)) Nat.one_ne_zero
  have hsum0 : (rowScatterDims N E C wf).start (ix2 e c) idx 0
      + (((rowScatterDims N E C wf).window (ix2 e c) 0 : ℕ) : ℤ) = (idx (ix2 e (0 : Fin 1))).toInt := by
    rw [hst0, hw0]; simp
  have hsum1 : (rowScatterDims N E C wf).start (ix2 e c) idx 1
      + (((rowScatterDims N E C wf).window (ix2 e c) 1 : ℕ) : ℤ) = (c.val : ℤ) := by
    rw [hst1, hw1]; simp
  unfold ScatterDims.resultIdx?
  split
  · rename_i h
    rw [Option.some.injEq]
    constructor
    · intro hf
      have h0 : ((rowScatterDims N E C wf).start (ix2 e c) idx 0
          + (((rowScatterDims N E C wf).window (ix2 e c) 0 : ℕ) : ℤ)).toNat = p.val :=
        congrArg (fun f => (f 0).val) hf
      have h1 : ((rowScatterDims N E C wf).start (ix2 e c) idx 1
          + (((rowScatterDims N E C wf).window (ix2 e c) 1 : ℕ) : ℤ)).toNat = q.val :=
        congrArg (fun f => (f 1).val) hf
      have hh := (h 0).1
      rw [hsum0] at h0 hh
      rw [hsum1] at h1
      exact ⟨by omega, Fin.ext (by omega)⟩
    · rintro ⟨hp, rfl⟩
      funext a; refine Fin.ext ?_
      match a with
      | ⟨0, _⟩ =>
        show ((rowScatterDims N E C wf).start (ix2 e c) idx 0
          + (((rowScatterDims N E C wf).window (ix2 e c) 0 : ℕ) : ℤ)).toNat = p.val
        rw [hsum0, hp]; simp
      | ⟨1, _⟩ =>
        show ((rowScatterDims N E C wf).start (ix2 e c) idx 1
          + (((rowScatterDims N E C wf).window (ix2 e c) 1 : ℕ) : ℤ)).toNat = c.val
        rw [hsum1]; simp
  · rename_i h
    constructor
    · intro hf; exact absurd hf (by simp)
    · rintro ⟨hp, rfl⟩
      exfalso; apply h
      intro a
      match a with
      | ⟨0, _⟩ =>
        show 0 ≤ (rowScatterDims N E C wf).start (ix2 e c) idx 0
              + (((rowScatterDims N E C wf).window (ix2 e c) 0 : ℕ) : ℤ)
          ∧ (rowScatterDims N E C wf).start (ix2 e c) idx 0
              + (((rowScatterDims N E C wf).window (ix2 e c) 0 : ℕ) : ℤ) < (N : ℤ)
        rw [hsum0, hp]
        have := p.isLt
        omega
      | ⟨1, _⟩ =>
        show 0 ≤ (rowScatterDims N E C wf).start (ix2 e c) idx 1
              + (((rowScatterDims N E C wf).window (ix2 e c) 1 : ℕ) : ℤ)
          ∧ (rowScatterDims N E C wf).start (ix2 e c) idx 1
              + (((rowScatterDims N E C wf).window (ix2 e c) 1 : ℕ) : ℤ) < (C : ℤ)
        rw [hsum1]
        have := c.isLt
        omega

end Cert.RowIndex

end
-- ==== Proof.LibScaleSum.lean ====
import proofs.«144526_j47150150975760_2_alg».proof.Proof.LibReal
import proofs.«144526_j47150150975760_2_alg».proof.Proof.LibRowIndex

/-!
# A row scale passes through a scatter-add of rows

Let every row p of an [N, C] array collect the updates e whose scatter index is p. If each update is a product
h_e · s_e with a further factor depending only on the target row, that factor can be taken out of the sum —
provided every number in sight is real, since on the extended reals a product does not distribute over a sum
that meets both infinities.
-/

noncomputable section

namespace Cert.ScaleSum

open Idealize.ShloMosaic Idealize.ShloMosaic.ValueIdx Cert.GinMath Cert.RowIndex
open scoped BigOperators

/-- A real factor goes inside a finite sum of real extended reals. -/
private theorem mul_sum_of_isReal {ι : Type*} (s : Finset ι) (a : EReal) (ha : IsReal a) (f : ι → EReal)
    (hf : ∀ i ∈ s, IsReal (f i)) : a * ∑ i ∈ s, f i = ∑ i ∈ s, a * f i := by
  classical
  obtain ⟨r, rfl⟩ := ha
  induction s using Finset.induction_on with
  | empty => simp
  | insert b s hb ih =>
    rw [Finset.sum_insert hb, Finset.sum_insert hb, ← ih (fun i hi => hf i (Finset.mem_insert_of_mem hi))]
    obtain ⟨x, hx⟩ := hf b (Finset.mem_insert_self b s)
    obtain ⟨y, hy⟩ := IsReal.sum (fun i hi => hf i (Finset.mem_insert_of_mem hi))
    rw [hx, hy, ← EReal.coe_add, ← EReal.coe_mul, ← EReal.coe_mul, ← EReal.coe_mul, ← EReal.coe_add, mul_add]

/-- A scatter-add of real updates into a real array is real. -/
theorem isReal_scatterAdd {s si su : Shape} {w : Nat} (ds : ScatterDims s si su)
    (z : s.Idx → EReal) (hz : ∀ i, IsReal (z i)) (idx : IVec si w) (u : su.Idx → EReal) (hu : ∀ j, IsReal (u j)) (i : s.Idx) :
    IsReal (Host.scatterAdd (F := Ideal) (φ := .f32) ds z idx u i) := by
  show IsReal (Ideal.hostScatterAdd ds z idx u i)
  unfold Ideal.hostScatterAdd
  exact (hz i).add (IsReal.sum fun j _ => hu j)

/-- The p-th scale times what a scatter-add of rows collects on (p, q), the updates being h · s with s the
    scale at the update's source row, is what the scatter-add collects when every update carries the product
    of both scales: the source row's and the (wrapped, clamped) target row's. Updates land on row p only if
    their scatter index is p, where wrapping a nonnegative index and clamping an index below N change nothing. -/
theorem scale_through_scatterAdd {N E C : Nat} (hN : 0 < N)
    (wfs : ScatterDims.WF ⟨2, ![N, C]⟩ ⟨2, ![E, 1]⟩ ⟨2, ![E, C]⟩ [1] [0] [0] 1)
    (H : (⟨2, ![N, C]⟩ : Shape).Idx → EReal) (hH : ∀ i, IsReal (H i))
    (d : (⟨1, ![N]⟩ : Shape).Idx → EReal) (hd : ∀ n, IsReal (d n))
    (z : (⟨2, ![N, C]⟩ : Shape).Idx → EReal) (hz : ∀ i, z i = 0)
    (src dst dstW : IVec ⟨2, ![E, 1]⟩ 32)
    (hW : ∀ e : Fin E, 0 ≤ (dst (ix2 e (0 : Fin 1))).toInt → dstW (ix2 e (0 : Fin 1)) = dst (ix2 e (0 : Fin 1)))
    (updK updR : (⟨2, ![E, C]⟩ : Shape).Idx → EReal)
    (hK : ∀ (e : Fin E) (c : Fin C), updK (ix2 e c)
        = H (ix2 (clampRow N hN (src (ix2 e (0 : Fin 1)))) c) * d (ix1 (clampRow N hN (src (ix2 e (0 : Fin 1))))))
    (hR : ∀ (e : Fin E) (c : Fin C), updR (ix2 e c)
        = H (ix2 (clampRow N hN (src (ix2 e (0 : Fin 1)))) c)
            * (d (ix1 (clampRow N hN (src (ix2 e (0 : Fin 1))))) * d (ix1 (clampRow N hN (dstW (ix2 e (0 : Fin 1)))))))
    (p : Fin N) (q : Fin C) :
    d (ix1 p) * Host.scatterAdd (F := Ideal) (φ := .f32) (rowScatterDims N E C wfs) z dst updK (ix2 p q)
      = Host.scatterAdd (F := Ideal) (φ := .f32) (rowScatterDims N E C wfs) z dst updR (ix2 p q) := by
  show d (ix1 p) * Ideal.hostScatterAdd (rowScatterDims N E C wfs) z dst updK (ix2 p q)
    = Ideal.hostScatterAdd (rowScatterDims N E C wfs) z dst updR (ix2 p q)
  unfold Ideal.hostScatterAdd
  rw [hz, zero_add, zero_add]
  have hKreal : ∀ j, IsReal (updK j) := by
    intro j
    obtain ⟨e, c, rfl⟩ : ∃ (e : Fin E) (c : Fin C), j = ix2 e c := ⟨j 0, j 1, eq_ix2 j⟩
    rw [hK]; exact (hH _).mul (hd _)
  rw [mul_sum_of_isReal _ _ (hd (ix1 p)) _ (fun j _ => hKreal j)]
  refine Finset.sum_congr rfl ?_
  intro j hj
  obtain ⟨e, c, rfl⟩ : ∃ (e : Fin E) (c : Fin C), j = ix2 e c := ⟨j 0, j 1, eq_ix2 j⟩
  obtain ⟨hp, -⟩ := (rowScatter_resultIdx wfs dst e c p q).mp (Finset.mem_filter.mp hj).2
  have hnn : 0 ≤ (dst (ix2 e (0 : Fin 1))).toInt := by rw [hp]; exact Int.natCast_nonneg _
  have hcl : clampRow N hN (dst (ix2 e (0 : Fin 1))) = p := by
    apply Fin.ext
    show min (dst (ix2 e (0 : Fin 1))).toInt.toNat (N - 1) = p.val
    rw [hp, Int.toNat_natCast]
    have := p.isLt
    omega
  rw [hK, hR, hW e hnn, hcl, mul_comm (d (ix1 p)), mul_assoc]

end Cert.ScaleSum

end
-- ==== Proof.RefReads.lean ====
import proofs.«144526_j47150150975760_2_alg».proof.Proof.ReadP
import proofs.«144526_j47150150975760_2_alg».proof.Proof.LibReal
import proofs.«144526_j47150150975760_2_alg».proof.Proof.LibRowIndex
import proofs.«144526_j47150150975760_2_alg».proof.Proof.LibScaleSum
import Idealize.ShloMosaic.Lib.ValueLayout

/-!
# The reference, read entry by entry

The reference computes two graph-convolution layers. Each layer transforms the features by a matrix, gathers
the transformed rows at the source nodes of the edges, multiplies each gathered row by the product of the
scales of the edge's source and target nodes, and adds the rows up at the target nodes; then it adds a bias,
and between the layers takes the maximum with zero. This file reads each of these arrays at an index.
-/

noncomputable section

namespace Cert.ReferenceIdeal.RefReads

open Cert.ReferenceIdeal Cert.ReferenceIdeal.Gen Cert.ReferenceIdeal.ReadP
open Idealize.ShloMosaic Idealize.ShloMosaic.ValueIdx Cert.GinMath Cert.RowIndex
open scoped BigOperators

variable (x0 : S50000x768.Idx → EReal) (x1 : S2x800000.Idx → BitVec 32) (x2 : S768x256.Idx → EReal)
  (x3 : S256.Idx → EReal) (x4 : S256x256.Idx → EReal) (x5 : S256.Idx → EReal)

/-- The edges' source nodes (negative indices wrapped), target nodes, wrapped target nodes, as index columns;
    and the nodes' scales. All four depend on the edge list only. -/
abbrev srcIdx : S850000x1.Idx → BitVec 32 := val_main_v21 (F := Ideal) x1
abbrev dstIdx : S850000x1.Idx → BitVec 32 := val_main_v9 (F := Ideal) x1
abbrev dstWrap : S850000x1.Idx → BitVec 32 := val_main_v28 (F := Ideal) x1
abbrev scaleV : S50000.Idx → EReal := val_main_v14 (F := Ideal) x1

/-- First layer: the transformed features, the scaled edge messages, their sums at the target nodes, and the
    rectified biased sums. Second layer: the same from the first layer's output; last the biased result. -/
abbrev lin1 : S50000x256.Idx → EReal := val_main_v15 (F := Ideal) x0 x2
abbrev upd1 : S850000x256.Idx → EReal := val_main_v40 (F := Ideal) x0 x1 x2
abbrev agg1 : S50000x256.Idx → EReal := val_main_v43 (F := Ideal) x0 x1 x2
abbrev hid : S50000x256.Idx → EReal := val_main_v47 (F := Ideal) x0 x1 x2 x3
abbrev lin2 : S50000x256.Idx → EReal := val_main_v48 (F := Ideal) x0 x1 x2 x3 x4
abbrev upd2 : S850000x256.Idx → EReal := val_main_v73 (F := Ideal) x0 x1 x2 x3 x4
abbrev agg2 : S50000x256.Idx → EReal := val_main_v76 (F := Ideal) x0 x1 x2 x3 x4
abbrev out : S50000x256.Idx → EReal := val_main_v79 (F := Ideal) x0 x1 x2 x3 x4 x5
abbrev zero1 : S50000x256.Idx → EReal := val_main_v41 (F := Ideal)
abbrev zero2 : S50000x256.Idx → EReal := val_main_v74 (F := Ideal)

theorem n_pos : 0 < 50000 := by decide

theorem lin1_apply (p : Fin 50000) (q : Fin 256) :
    lin1 x0 x2 (ix2 p q) = ∑ k : Fin 768, x0 (ix2 p k) * x2 (ix2 k q) := by
  show val_main_v15 (F := Ideal) x0 x2 (ix2 p q) = _
  rw [val_main_v15_apply]
  refine Finset.sum_congr rfl fun k _ => ?_
  have el : lidx_main_v15 (ix2 p q) k = ix2 p k :=
    funext fun a => Fin.ext (by match a with | ⟨0, _⟩ => rfl | ⟨1, _⟩ => rfl)
  have er : ridx_main_v15 (ix2 p q) k = ix2 k q :=
    funext fun a => Fin.ext (by match a with | ⟨0, _⟩ => rfl | ⟨1, _⟩ => rfl)
  rw [el, er]

theorem lin2_apply (p : Fin 50000) (q : Fin 256) :
    lin2 x0 x1 x2 x3 x4 (ix2 p q) = ∑ k : Fin 256, hid x0 x1 x2 x3 (ix2 p k) * x4 (ix2 k q) := by
  show val_main_v48 (F := Ideal) x0 x1 x2 x3 x4 (ix2 p q) = _
  rw [val_main_v48_apply]
  refine Finset.sum_congr rfl fun k _ => ?_
  have el : lidx_main_v48 (ix2 p q) k = ix2 p k :=
    funext fun a => Fin.ext (by match a with | ⟨0, _⟩ => rfl | ⟨1, _⟩ => rfl)
  have er : ridx_main_v48 (ix2 p q) k = ix2 k q :=
    funext fun a => Fin.ext (by match a with | ⟨0, _⟩ => rfl | ⟨1, _⟩ => rfl)
  rw [el, er]

theorem hid_apply (p : Fin 50000) (k : Fin 256) :
    hid x0 x1 x2 x3 (ix2 p k) = max (agg1 x0 x1 x2 (ix2 p k) + x3 (ix1 k)) 0 := by
  show val_main_v47 (F := Ideal) x0 x1 x2 x3 (ix2 p k) = _
  rw [val_main_v47_apply, val_main_v46_apply, val_main_call1_v0_apply, val_main_call1_cst_apply,
    val_main_v45_apply, val_main_v44_apply]
  have e : idx_main_v44 (idx_main_v45 (ix2 p k)) = ix1 k :=
    funext fun a => Fin.ext (by match a with | ⟨0, _⟩ => rfl)
  rw [e]
  show max (val_main_v43 (F := Ideal) x0 x1 x2 (ix2 p k) + x3 (ix1 k)) (Ideal.ofBits .f32 0x00000000#32) = _
  rw [ofBits_zero]

theorem out_apply (p : Fin 50000) (q : Fin 256) :
    out x0 x1 x2 x3 x4 x5 (ix2 p q) = agg2 x0 x1 x2 x3 x4 (ix2 p q) + x5 (ix1 q) := by
  show val_main_v79 (F := Ideal) x0 x1 x2 x3 x4 x5 (ix2 p q) = _
  rw [val_main_v79_apply, val_main_v78_apply, val_main_v77_apply]
  have e : idx_main_v77 (idx_main_v78 (ix2 p q)) = ix1 q :=
    funext fun a => Fin.ext (by match a with | ⟨0, _⟩ => rfl)
  rw [e]
  rfl

theorem zero1_apply (i : S50000x256.Idx) : zero1 i = 0 := by
  show val_main_v41 (F := Ideal) i = 0
  rw [val_main_v41_apply, val_main_cst_8_apply]
  exact ofBits_zero

theorem zero2_apply (i : S50000x256.Idx) : zero2 i = 0 := by
  show val_main_v74 (F := Ideal) i = 0
  rw [val_main_v74_apply, val_main_cst_15_apply]
  exact ofBits_zero

/-- The first layer's sums are a scatter-add of rows, by the target column, of the scaled messages into zeros. -/
theorem agg1_eq :
    agg1 x0 x1 x2 = Host.scatterAdd (F := Ideal) (φ := .f32)
      (rowScatterDims 50000 850000 256 scatter_S50000x256_S850000x1_S850000x256_1_0_0_1_wf) zero1 (dstIdx x1) (upd1 x0 x1 x2) := by
  show val_main_v43 (F := Ideal) x0 x1 x2 = _
  unfold val_main_v43
  rfl

theorem agg2_eq :
    agg2 x0 x1 x2 x3 x4 = Host.scatterAdd (F := Ideal) (φ := .f32)
      (rowScatterDims 50000 850000 256 scatter_S50000x256_S850000x1_S850000x256_1_0_0_1_wf) zero2 (dstIdx x1) (upd2 x0 x1 x2 x3 x4) := by
  show val_main_v76 (F := Ideal) x0 x1 x2 x3 x4 = _
  unfold val_main_v76
  rfl

/-- A gather of rows by the program's dimension numbers, read at an entry. -/
private theorem rowGather_read (H : S50000x256.Idx → EReal) (idx : S850000x1.Idx → BitVec 32)
    (e : Fin 850000) (c : Fin 256) :
    Host.gather gather_S50000x256_S850000x1_S850000x256_1_0_n_n_0_1_1256 H idx (ix2 e c)
      = H (ix2 (clampRow 50000 n_pos (idx (ix2 e (0 : Fin 1)))) c) :=
  rowGather_apply n_pos gather_S50000x256_S850000x1_S850000x256_1_0_n_n_0_1_1256_wf H idx e c

/-- A gather of entries of a vector by the program's dimension numbers, read at an entry. -/
private theorem vecGather_read (D : S50000.Idx → EReal) (idx : S850000x1.Idx → BitVec 32) (e : Fin 850000) :
    Host.gather gather_S50000_S850000x1_S850000_n_0_n_n_0_1_1 D idx (ix1 e)
      = D (ix1 (clampRow 50000 n_pos (idx (ix2 e (0 : Fin 1))))) :=
  vecGather_apply n_pos gather_S50000_S850000x1_S850000_n_0_n_n_0_1_1_wf D idx e

/-- The program wraps the source column four times and the target column twice; the copies are equal. -/
private theorem v36_eq : val_main_v36 (F := Ideal) x1 = val_main_v21 (F := Ideal) x1 := rfl
private theorem v54_eq : val_main_v54 (F := Ideal) x1 = val_main_v21 (F := Ideal) x1 := rfl
private theorem v69_eq : val_main_v69 (F := Ideal) x1 = val_main_v21 (F := Ideal) x1 := rfl
private theorem v61_eq : val_main_v61 (F := Ideal) x1 = val_main_v28 (F := Ideal) x1 := rfl

/-- A first-layer message: the transformed row of the edge's (clamped) source node, times the scales of the
    source node and of the (wrapped, clamped) target node. -/
theorem upd1_apply (e : Fin 850000) (c : Fin 256) :
    upd1 x0 x1 x2 (ix2 e c)
      = lin1 x0 x2 (ix2 (clampRow 50000 n_pos (srcIdx x1 (ix2 e (0 : Fin 1)))) c)
          * (scaleV x1 (ix1 (clampRow 50000 n_pos (srcIdx x1 (ix2 e (0 : Fin 1)))))
              * scaleV x1 (ix1 (clampRow 50000 n_pos (dstWrap x1 (ix2 e (0 : Fin 1)))))) := by
  show val_main_v40 (F := Ideal) x0 x1 x2 (ix2 e c) = _
  rw [val_main_v40_apply, val_main_v39_apply, val_main_v38_apply, val_main_v30_apply]
  have ei : idx_main_v38 (idx_main_v39 (ix2 e c)) = ix1 e :=
    funext fun a => Fin.ext (by match a with | ⟨0, _⟩ => rfl)
  rw [ei]
  unfold val_main_v37 val_main_v22 val_main_v29
  rw [v36_eq, rowGather_read, vecGather_read, vecGather_read]
  rfl

theorem upd2_apply (e : Fin 850000) (c : Fin 256) :
    upd2 x0 x1 x2 x3 x4 (ix2 e c)
      = lin2 x0 x1 x2 x3 x4 (ix2 (clampRow 50000 n_pos (srcIdx x1 (ix2 e (0 : Fin 1)))) c)
          * (scaleV x1 (ix1 (clampRow 50000 n_pos (srcIdx x1 (ix2 e (0 : Fin 1)))))
              * scaleV x1 (ix1 (clampRow 50000 n_pos (dstWrap x1 (ix2 e (0 : Fin 1)))))) := by
  show val_main_v73 (F := Ideal) x0 x1 x2 x3 x4 (ix2 e c) = _
  rw [val_main_v73_apply, val_main_v72_apply, val_main_v71_apply, val_main_v63_apply]
  have ei : idx_main_v71 (idx_main_v72 (ix2 e c)) = ix1 e :=
    funext fun a => Fin.ext (by match a with | ⟨0, _⟩ => rfl)
  rw [ei]
  unfold val_main_v70 val_main_v55 val_main_v62
  rw [v69_eq, v54_eq, v61_eq, rowGather_read, vecGather_read, vecGather_read]
  rfl

/-- Wrapping leaves a nonnegative target index as it is. -/
theorem wrap_of_nonneg (e : Fin 850000) (h : 0 ≤ (dstIdx x1 (ix2 e (0 : Fin 1))).toInt) :
    dstWrap x1 (ix2 e (0 : Fin 1)) = dstIdx x1 (ix2 e (0 : Fin 1)) := by
  show val_main_v28 (F := Ideal) x1 (ix2 e (0 : Fin 1)) = val_main_v9 (F := Ideal) x1 (ix2 e (0 : Fin 1))
  have h' : 0 ≤ (val_main_v9 (F := Ideal) x1 (ix2 e (0 : Fin 1))).toInt := h
  rw [val_main_v9_apply] at h' ⊢
  rw [val_main_v28_apply, val_main_v27_apply, val_main_v24_apply, val_main_v23_apply, val_main_c_4_apply]
  have ej : idx_main_v28 (ix2 e (0 : Fin 1)) = idx_main_v9 (ix2 e (0 : Fin 1)) := rfl
  rw [ej]
  generalize val_main_v6 (F := Ideal) x1 (idx_main_v9 (ix2 e (0 : Fin 1))) = a at h' ⊢
  have hc : IntOp.cmpi .slt a 0#32 = 0#1 := by
    apply eq_zero_of_ne_one
    intro h1
    have hlt := IntOp.cmpi_slt.mp h1
    have h0 : (0#32 : BitVec 32).toInt = 0 := by decide
    rw [h0] at hlt
    omega
  rw [hc, select_zero]

/-- Every node's scale is real: the reciprocal square root of a positive count, or zero. -/
theorem isReal_scale (n : S50000.Idx) : IsReal (scaleV x1 n) := by
  show IsReal (val_main_v14 (F := Ideal) x1 n)
  rw [val_main_v14_apply, val_main_v12_apply, val_main_v13_apply, val_main_call0_v1_apply,
    val_main_call0_v0_apply, val_main_cst_2_apply, val_main_v11_apply, val_main_cst_1_apply]
  have hdeg : IsReal (val_main_v10 (F := Ideal) x1 n) := by
    unfold val_main_v10
    refine Cert.ScaleSum.isReal_scatterAdd _ _ (fun i => ?_) _ _ (fun j => ?_) n
    · rw [val_main_v8_apply, val_main_cst_0_apply]
      show IsReal (Ideal.ofBits .f32 0x00000000#32)
      rw [ofBits_zero]; exact isReal_zero
    · rw [val_main_v7_apply, val_main_cst_apply]
      show IsReal (Ideal.ofBits .f32 0x3F800000#32)
      rw [ofBits_one]; exact IsReal.coe _
  obtain ⟨r, hr⟩ := hdeg
  rw [hr]
  show IsReal (Scalar.select (Ideal.cmp .ogt (r : EReal) (Ideal.ofBits .f32 0x00000000#32)) (Ideal.rsqrt (r : EReal))
    (Ideal.ofBits .f32 0x00000000#32))
  rw [ofBits_zero]
  by_cases hpos : (0 : EReal) < (r : EReal)
  · have hc : Ideal.cmp .ogt (r : EReal) 0 = 1#1 := by
      show BitVec.ofBool (decide ((0 : EReal) < (r : EReal))) = 1#1
      rw [decide_eq_true hpos]; rfl
    rw [hc, select_one, Ideal.rsqrt_coe]
    have hr0 : 0 < r := by exact_mod_cast hpos
    rw [if_neg (not_lt.mpr hr0.le), if_neg hr0.ne']
    exact IsReal.coe _
  · have hc : Ideal.cmp .ogt (r : EReal) 0 = 0#1 := by
      show BitVec.ofBool (decide ((0 : EReal) < (r : EReal))) = 0#1
      rw [decide_eq_false hpos]; rfl
    rw [hc, select_zero]
    exact isReal_zero

end Cert.ReferenceIdeal.RefReads

end
-- ==== Proof.AggBridge.lean ====
import proofs.«144526_j47150150975760_2_alg».proof.Proof.KHost
import proofs.«144526_j47150150975760_2_alg».proof.Proof.RefReads
import proofs.«144526_j47150150975760_2_alg».proof.Proof.LibScaleSum

/-!
# One aggregation step, kernel against reference

The kernel scales each row of the transformed features by its node's scale before the gather, adds the gathered
rows up at the target nodes, and multiplies the sum by the target node's scale afterwards. The reference
multiplies each gathered row by both scales before adding. Every row that lands on target p carries the factor
scale(p), and all the numbers are real, so the two agree.
-/

set_option maxRecDepth 16384

noncomputable section

namespace Cert.AggBridge

open Idealize.ShloMosaic Idealize.ShloMosaic.ValueIdx Cert.GinMath Cert.RowIndex
open Cert.ReferenceIdeal Cert.ReferenceIdeal.Gen Cert.ReferenceIdeal.ReadP Cert.ReferenceIdeal.RefReads
open scoped BigOperators

/-- The kernel's aggregate of the row-scaled array `A = H · scale`, times the target's scale, is the reference's
    aggregate of the messages built from `H`. -/
theorem agg_bridge (x1 : S2x800000.Idx → BitVec 32)
    (H A : S50000x256.Idx → EReal) (hH : ∀ i, IsReal (H i))
    (hA : ∀ (p : Fin 50000) (q : Fin 256), A (ix2 p q) = H (ix2 p q) * scaleV x1 (ix1 p))
    (zeroR : S50000x256.Idx → EReal) (hz : ∀ i, zeroR i = 0)
    (updR' : S850000x256.Idx → EReal)
    (hR : ∀ (e : Fin 850000) (c : Fin 256), updR' (ix2 e c)
        = H (ix2 (clampRow 50000 n_pos (srcIdx x1 (ix2 e (0 : Fin 1)))) c)
            * (scaleV x1 (ix1 (clampRow 50000 n_pos (srcIdx x1 (ix2 e (0 : Fin 1)))))
                * scaleV x1 (ix1 (clampRow 50000 n_pos (dstWrap x1 (ix2 e (0 : Fin 1)))))))
    (p : Fin 50000) (q : Fin 256) :
    scaleV x1 (ix1 p)
        * Cert.KernelIdeal.KHost.aggOf A (val_main_v3 (F := Ideal) x1) (val_main_v6 (F := Ideal) x1) (ix2 p q)
      = Host.scatterAdd (F := Ideal) (φ := .f32)
          (rowScatterDims 50000 850000 256 scatter_S50000x256_S850000x1_S850000x256_1_0_0_1_wf) zeroR (dstIdx x1) updR' (ix2 p q) := by
  -- the kernel's index columns are the reference's
  have hsrc : Cert.KernelIdeal.KHost.wrapCol (val_main_v3 (F := Ideal) x1) = srcIdx x1 := by
    show _ = val_main_v21 (F := Ideal) x1
    unfold Cert.KernelIdeal.KHost.wrapCol val_main_v21 val_main_v20 val_main_v17 val_main_v19 val_main_v18
      val_main_v16 val_main_c val_main_c_3
    rfl
  have hdst : Cert.KernelIdeal.KHost.rawCol (val_main_v6 (F := Ideal) x1) = dstIdx x1 := by
    show _ = val_main_v9 (F := Ideal) x1
    unfold Cert.KernelIdeal.KHost.rawCol val_main_v9
    rfl
  -- the kernel's stretch is a scatter-add of rows of the gathered rows of `A` into zeros
  have hagg : Cert.KernelIdeal.KHost.aggOf A (val_main_v3 (F := Ideal) x1) (val_main_v6 (F := Ideal) x1)
      = Host.scatterAdd (F := Ideal) (φ := .f32)
          (rowScatterDims 50000 850000 256 scatter_S50000x256_S850000x1_S850000x256_1_0_0_1_wf) zero1 (dstIdx x1)
          (Host.gather (rowGatherDims 50000 850000 256 gather_S50000x256_S850000x1_S850000x256_1_0_n_n_0_1_1256_wf)
            A (srcIdx x1)) := by
    unfold Cert.KernelIdeal.KHost.aggOf
    rw [hsrc, hdst]
    rfl
  -- a gathered row of `A` is the gathered row of `H` times the source node's scale
  have hK : ∀ (e : Fin 850000) (c : Fin 256),
      Host.gather (rowGatherDims 50000 850000 256 gather_S50000x256_S850000x1_S850000x256_1_0_n_n_0_1_1256_wf)
          A (srcIdx x1) (ix2 e c)
        = H (ix2 (clampRow 50000 n_pos (srcIdx x1 (ix2 e (0 : Fin 1)))) c)
            * scaleV x1 (ix1 (clampRow 50000 n_pos (srcIdx x1 (ix2 e (0 : Fin 1))))) := by
    intro e c
    rw [rowGather_apply n_pos gather_S50000x256_S850000x1_S850000x256_1_0_n_n_0_1_1256_wf A (srcIdx x1) e c, hA]
  have hzz : zeroR = zero1 := funext fun i => (hz i).trans (zero1_apply i).symm
  rw [hagg, hzz]
  exact Cert.ScaleSum.scale_through_scatterAdd n_pos scatter_S50000x256_S850000x1_S850000x256_1_0_0_1_wf H hH
    (scaleV x1) (isReal_scale x1) zero1 zero1_apply (srcIdx x1) (dstIdx x1) (dstWrap x1) (wrap_of_nonneg x1)
    (Host.gather (rowGatherDims 50000 850000 256 gather_S50000x256_S850000x1_S850000x256_1_0_n_n_0_1_1256_wf)
      A (srcIdx x1))
    updR' hK hR p q

end Cert.AggBridge

end
-- ==== Proof.Bridge.lean ====
import proofs.«144526_j47150150975760_2_alg».proof.Proof.KValue
import proofs.«144526_j47150150975760_2_alg».proof.Proof.RefReads
import proofs.«144526_j47150150975760_2_alg».proof.Proof.AggBridge

/-!
# The kernel program's result is the reference's

Both programs run two graph-convolution layers on the same edge list, with the same node scales s. In each
layer the reference adds up, at every target node p, the transformed rows of the edges into p, each multiplied by
s(source) · s(p); the kernel multiplies the rows by s(source) before the sum and the sum by s(p) after it. With
every input real every array in sight is real, and a real factor common to all terms of a finite real sum can
be taken out of it. Layer by layer: the first layer's sums agree, so the rectified rows fed to the second
transform agree, so the second layer's sums agree, and both programs add the same bias at the end.
-/

set_option maxRecDepth 16384

noncomputable section

namespace Cert.Bridge

open Idealize.ShloMosaic Idealize.ShloMosaic.ValueIdx Idealize.ShloMosaic.TcCoe Idealize.SL.Sem
open Cert.GinMath Cert.RowIndex Cert.ScaleSum Cert.AggBridge
open Cert.ReferenceIdeal.RefReads
open Cert.KernelIdeal (nD τ sig main_v42)
open Cert.KernelIdeal.Gen (W8)
open Cert.KernelIdeal.KValue
open scoped BigOperators

section Reference

variable (x0 : Cert.ReferenceIdeal.S50000x768.Idx → EReal) (x1 : Cert.ReferenceIdeal.S2x800000.Idx → BitVec 32)
  (x2 : Cert.ReferenceIdeal.S768x256.Idx → EReal) (x3 : Cert.ReferenceIdeal.S256.Idx → EReal)
  (x4 : Cert.ReferenceIdeal.S256x256.Idx → EReal)
  (h0 : ∀ i, IsReal (x0 i)) (h2 : ∀ i, IsReal (x2 i)) (h3 : ∀ i, IsReal (x3 i)) (h4 : ∀ i, IsReal (x4 i))

include h0 h2 in
/-- The transformed features are real. -/
theorem lin1_real (i : Cert.ReferenceIdeal.S50000x256.Idx) : IsReal (lin1 x0 x2 i) := by
  obtain ⟨p, q, rfl⟩ : ∃ (p : Fin 50000) (q : Fin 256), i = ix2 p q := ⟨i 0, i 1, eq_ix2 i⟩
  rw [lin1_apply]
  exact IsReal.sum fun k _ => (h0 _).mul (h2 _)

include h0 h2 in
/-- The first layer's sums are real. -/
theorem agg1_real (i : Cert.ReferenceIdeal.S50000x256.Idx) : IsReal (agg1 x0 x1 x2 i) := by
  rw [Cert.ReferenceIdeal.RefReads.agg1_eq]
  refine isReal_scatterAdd _ _ (fun i => by rw [zero1_apply]; exact isReal_zero) _ _ (fun j => ?_) i
  obtain ⟨e, c, rfl⟩ : ∃ (e : Fin 850000) (c : Fin 256), j = ix2 e c := ⟨j 0, j 1, eq_ix2 j⟩
  rw [upd1_apply]
  exact (lin1_real x0 x2 h0 h2 _).mul ((isReal_scale x1 _).mul (isReal_scale x1 _))

include h0 h2 h3 h4 in
/-- The second layer's transformed rows are real. -/
theorem lin2_real (i : Cert.ReferenceIdeal.S50000x256.Idx) : IsReal (lin2 x0 x1 x2 x3 x4 i) := by
  obtain ⟨p, q, rfl⟩ : ∃ (p : Fin 50000) (q : Fin 256), i = ix2 p q := ⟨i 0, i 1, eq_ix2 i⟩
  rw [lin2_apply]
  refine IsReal.sum fun k _ => IsReal.mul ?_ (h4 _)
  rw [hid_apply]
  exact ((agg1_real x0 x1 x2 h0 h2 _).add (h3 _)).max isReal_zero

end Reference

section Kernel

variable (m : (ℓ : Loc nD τ sig) → Buf (Elt Ideal) ℓ) (ρ : Dev nD → PrngReg) (c : Dev nD)
  (h0 : ∀ i, IsReal (x m c i)) (h2 : ∀ i, IsReal (w1 m c i)) (h3 : ∀ i, IsReal (b1 m c i)) (h4 : ∀ i, IsReal (w2 m c i))

include h0 h2 in
/-- First layer: the kernel's scaled sum at (p, k) is the reference's sum. -/
theorem layer1 (p : Fin 50000) (k : Fin 256) :
    sc m c (ix1 p) * Cert.KernelIdeal.KHost.aggOf (out1 m ρ c) (srcL m c) (dstL m c) (ix2 p k)
      = agg1 (x m c) (edges m c) (w1 m c) (ix2 p k) := by
  rw [Cert.ReferenceIdeal.RefReads.agg1_eq]
  exact agg_bridge (edges m c) (lin1 (x m c) (w1 m c)) (out1 m ρ c) (lin1_real _ _ h0 h2)
    (fun p q => by rw [out1_apply, lin1_apply]) zero1 zero1_apply (upd1 (x m c) (edges m c) (w1 m c))
    (upd1_apply (x m c) (edges m c) (w1 m c)) p k

include h0 h2 in
/-- The second launch's output is the reference's second transform, row-scaled. -/
theorem out2_lin2 (p : Fin 50000) (q : Fin 256) :
    out2 m ρ c (ix2 p q) = lin2 (x m c) (edges m c) (w1 m c) (b1 m c) (w2 m c) (ix2 p q) * sc m c (ix1 p) := by
  rw [out2_apply, lin2_apply]
  refine congrArg (· * sc m c (ix1 p)) (Finset.sum_congr rfl fun k _ => ?_)
  rw [hid_apply, layer1 m ρ c h0 h2 p k]

include h0 h2 h3 h4 in
/-- Second layer: the kernel's scaled sum at (p, q) is the reference's sum. -/
theorem layer2 (p : Fin 50000) (q : Fin 256) :
    sc m c (ix1 p) * Cert.KernelIdeal.KHost.aggOf (out2 m ρ c) (srcL m c) (dstL m c) (ix2 p q)
      = agg2 (x m c) (edges m c) (w1 m c) (b1 m c) (w2 m c) (ix2 p q) := by
  rw [Cert.ReferenceIdeal.RefReads.agg2_eq]
  exact agg_bridge (edges m c) (lin2 (x m c) (edges m c) (w1 m c) (b1 m c) (w2 m c)) (out2 m ρ c)
    (lin2_real _ _ _ _ _ h0 h2 h3 h4) (out2_lin2 m ρ c h0 h2) zero2 zero2_apply
    (upd2 (x m c) (edges m c) (w1 m c) (b1 m c) (w2 m c)) (upd2_apply (x m c) (edges m c) (w1 m c) (b1 m c) (w2 m c)) p q

include h0 h2 h3 h4 in
/-- The kernel program's result array is the reference's result, as a function of the same arguments. -/
theorem value_eq :
    (W8 m ρ c (Proc.devRef .tc main_v42) : Cert.ReferenceIdeal.S50000x256.Idx → EReal)
      = out (x m c) (edges m c) (w1 m c) (b1 m c) (w2 m c) (b2 m c) := by
  funext i
  obtain ⟨p, q, rfl⟩ : ∃ (p : Fin 50000) (q : Fin 256), i = ix2 p q := ⟨i 0, i 1, eq_ix2 i⟩
  rw [out_apply, ← layer2 m ρ c h0 h2 h3 h4 p q]
  exact result_apply m ρ c p q

end Kernel

end Cert.Bridge

end
-- ==== Proof.lean ====
/-
  Two graph-convolution layers, kernel against reference, over the extended reals.

  With x the node features, (src, dst) the edges (each node also looped to itself), deg the nodes' counts of
  incoming edges and s = deg^(-1/2) where deg > 0 (else 0), one layer of the reference is

      out(p, q) = ∑ over edges e into p of (X · W)(src e, q) · (s(src e) · s(p))  +  b(q),

  and the reference is layer 2 applied to max (layer 1) 0. The kernel program computes the same s, multiplies row
  r of X · W by s(r) inside its launch, sums the gathered rows at the targets, and multiplies the sum at p by s(p)
  in the next launch — the factor s(p) is common to all the terms of the sum at p. On the extended reals a
  product distributes over a sum only where no two infinities of opposite signs meet, so the step uses the
  precondition: every float input is finite, hence every transformed row, scale and partial sum is a real
  number, and there the common factor can be taken out. A change of float format is the identity at the exact
  instance, so the launches' bf16 stores and the reference's f32 arithmetic are the same numbers.

  The three frame claims: the two kernel programs' are their generated frame certificates; the reference has no
  launch, and its frame is its run with the result forgotten. The idealization rewrote nothing, so there is
  nothing to preserve. The value claim: the kernel program's run with its result array named, that array read
  launch by launch and stretch by stretch back to the arguments, and the reference's run read operation by
  operation, meet in one function of the arguments.
-/
import proofs.«144526_j47150150975760_2_alg».proof.Defs
import proofs.«144526_j47150150975760_2_alg».proof.Proof.Gen.Kernel
import proofs.«144526_j47150150975760_2_alg».proof.Proof.Gen.Kernel.Frame
import proofs.«144526_j47150150975760_2_alg».proof.Proof.Gen.KernelIdeal
import proofs.«144526_j47150150975760_2_alg».proof.Proof.Gen.KernelIdeal.Frame
import proofs.«144526_j47150150975760_2_alg».proof.Proof.Gen.ReferenceIdeal
import proofs.«144526_j47150150975760_2_alg».proof.Proof.Gen.Pre_finite_inputs
import proofs.«144526_j47150150975760_2_alg».proof.Proof.KRun
import proofs.«144526_j47150150975760_2_alg».proof.Proof.ReadP
import proofs.«144526_j47150150975760_2_alg».proof.Proof.Finite
import proofs.«144526_j47150150975760_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments, every one of them finite, both programs end with the same
    result array: the reference's composed function of the arguments. -/
theorem algebraic : Cert.algebraic_KernelIdeal_ReferenceIdeal := by
  intro m ρ m' ρ' hpre hagree
  refine ⟨fun c => Cert.ReferenceIdeal.ReadP.val_main_v79 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.KRun.run_named (F := Ideal) m ρ)
    obtain ⟨h0, h2, h3, h4, -⟩ := Cert.Finite.reals_of_pre _ _ _ _ _ _ (hpre c)
    exact Cert.Bridge.value_eq m ρ c h0 h2 h3 h4
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v79_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
